-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) (main_arg2 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  main_v13
-- ==== Kernel.lean ====
abbrev S4096x256 : Shape := ⟨2, ![4096, 256]⟩
abbrev S256x256 : Shape := ⟨2, ![256, 256]⟩
abbrev S1x256 : Shape := ⟨2, ![1, 256]⟩
abbrev S1024x256 : Shape := ⟨2, ![1024, 256]⟩
abbrev S1024 : Shape := ⟨1, ![1024]⟩
abbrev S1024x1 : Shape := ⟨2, ![1024, 1]⟩
abbrev S256 : Shape := ⟨1, ![256]⟩
abbrev S256x1024 : Shape := ⟨2, ![256, 1024]⟩
abbrev S_ : Shape := ⟨0, ![]⟩

abbrev nBuf : Space → Nat
  | .hbm => 50
  | .vmem => 12
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S1x256, .f32⟩
  | .hbm, ⟨7, _⟩ => ⟨S1x256, .f32⟩
  | .hbm, ⟨8, _⟩ => ⟨S1x256, .f32⟩
  | .hbm, ⟨9, _⟩ => ⟨S256x256, .f32⟩
  | .hbm, ⟨10, _⟩ => ⟨S_, .f32⟩
  | .hbm, ⟨11, _⟩ => ⟨S_, .f32⟩
  | .hbm, ⟨12, _⟩ => ⟨S256x256, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S256x256, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S256x256, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S256x256, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S256x256, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x256, .f32⟩
  | .hbm, ⟨33, _⟩ => ⟨S_, .f32⟩
  | .hbm, ⟨34, _⟩ => ⟨S_, .f32⟩
  | .hbm, ⟨35, _⟩ => ⟨S1x256, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1x256, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_cst_9 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  shapeCasts_S1x256_S1x256 : S1x256.ShapeCasts S1x256
  reduces_S1024x256_S256 : S1024x256.Reduces [0] S256
  shapeCasts_S256_S1x256 : S256.ShapeCasts S1x256
  bitsLt_bf16_f32 : FTy.bits .bf16 < FTy.bits .f32
  shapeCasts_S256x256_S256x256 : S256x256.ShapeCasts S256x256
  transposes_S1024x256_p1_0_S256x1024 : S1024x256.Transposes [1, 0] S256x1024
  reducesTo_S256x256_S_d0_1 : S256x256.ReducesTo [0, 1] S_
  h_S_ : 0 < S_.numel
  reducesTo_S1x256_S_d0_1 : S1x256.ReducesTo [0, 1] S_
  dot_S256x1024_S1024x256_S256x256_1_0_0_1_n_n_wf : DotDims.WF S256x1024 S1024x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .f32 = 32 ∨ (Rect.block (s := S4096x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x256.size a
  hwx0_2 : ∀ i : grid0.Coords, EltTy.bits .f32 = 32 ∨ (Rect.block (s := S4096x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)

variable [Facts₀]

def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S256x256.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S256x256.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S256x256.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S1x256.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_4) S1x256.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_5) S1x256.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S256x4096 : Shape := ⟨2, ![256, 4096]⟩
abbrev S4096x4096 : Shape := ⟨2, ![4096, 4096]⟩

abbrev nBuf : Space → Nat
  | .hbm => 95
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x256, .f32⟩
  | .hbm, ⟨32, _⟩ => ⟨S4096x256, .f32⟩
  | .hbm, ⟨33, _⟩ => ⟨S256x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S256x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S256x4096, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S256x4096, .f32⟩
  | .hbm, ⟨49, _⟩ => ⟨S4096x4096, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S256x4096, .f32⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S256x4096, .f32⟩
  | .hbm, ⟨59, _⟩ => ⟨S4096x4096, .f32⟩
  | .hbm, ⟨60, _⟩ => ⟨S_, .f32⟩
  | .hbm, ⟨61, _⟩ => ⟨S4096x4096, .f32⟩
  | .hbm, ⟨62, _⟩ => ⟨S4096x4096, .f32⟩
  | .hbm, ⟨63, _⟩ => ⟨S_, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S4096x4096, .f32⟩
  | .hbm, ⟨78, _⟩ => ⟨S4096x4096, .f32⟩
  | .hbm, ⟨79, _⟩ => ⟨S4096x4096, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S4096x4096, .f32⟩
  | .hbm, ⟨84, _⟩ => ⟨S_, .f32⟩
  | .hbm, ⟨85, _⟩ => ⟨S_, .f32⟩
  | .hbm, ⟨86, _⟩ => ⟨S4096x4096, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S4096x4096, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call2_v0 : Ref sig .tc := ⟨.hbm, 23, rfl⟩
abbrev main_call2_cst : Ref sig .tc := ⟨.hbm, 24, rfl⟩
abbrev main_call2_v1 : Ref sig .tc := ⟨.hbm, 25, rfl⟩
abbrev main_call2_v2 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_13 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_14 : Ref sig .tc := ⟨.hbm, 84, rfl⟩
abbrev main_v54 : Ref sig .tc := ⟨.hbm, 85, rfl⟩
abbrev main_v55 : Ref sig .tc := ⟨.hbm, 86, rfl⟩
abbrev main_cst_15 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_16 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  transposes_S4096x256_S256x4096_1_0 : S4096x256.Transposes [1, 0] S256x4096
  bcast_S_S4096x4096 : S_.BroadcastsInDim S4096x4096 (![] : Fin 0 → Fin S4096x4096.rank)
  reducesTo_S4096x4096_S_d0_1 : S4096x4096.ReducesTo [0, 1] S_
  dot_S4096x256_S256x4096_S4096x4096_1_0_0_1_n_n_wf : DotDims.WF S4096x256 S256x4096 S4096x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.Pieces.lean ====
/-
  What the six accumulated outputs hold after each grid point, at any float instance.

  The grid has four points; point t streams rows 1024 t … 1024 t + 1023 of the three inputs. Each output block is the
  whole output array and is carried from point to point: at point 0 it is zeroed and then receives the block's
  contribution, at later points it receives the contribution on top of what the point before left. So after point n
  the outputs hold the n-fold iterate of one step function from the zero blocks — shown by induction on the point.
-/
import proofs.«172687_j88081189306970_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

section Cases

variable (c : Dev nD) (i : grid0.Coords) (a1 : Memref sig .tc .vmem S1024x256 .f32) (h1 : a1.IsWhole)
  (a2 : Memref sig .tc .vmem S1024x256 .f32) (h2 : a2.IsWhole) (a3 : Memref sig .tc .vmem S1024x256 .f32) (h3 : a3.IsWhole)
  (a4 : Memref sig .tc .vmem S256x256 .f32) (h4 : a4.IsWhole) (a5 : Memref sig .tc .vmem S256x256 .f32) (h5 : a5.IsWhole)
  (a6 : Memref sig .tc .vmem S256x256 .f32) (h6 : a6.IsWhole) (a7 : Memref sig .tc .vmem S1x256 .f32) (h7 : a7.IsWhole)
  (a8 : Memref sig .tc .vmem S1x256 .f32) (h8 : a8.IsWhole) (a9 : Memref sig .tc .vmem S1x256 .f32) (h9 : a9.IsWhole)

/-- At a later grid point the first Gram block ends as the carried value plus this block's contribution: the one covering
    store's payload, its loads reading the whole buffers. -/
theorem outB3 (hc : ¬cond0_0 i) (x0 x1 x2 : Vec F S1024x256 .f32) (xo3 xo4 xo5 : Vec F S256x256 .f32)
    (xo6 xo7 xo8 : Vec F S1x256 .f32) :
    out0_B_3 c i a1 h1 a2 h2 a3 h3 a4 h4 a5 h5 a6 h6 a7 h7 a8 h8 a9 h9 hc x0 x1 x2 xo3 xo4 xo5 xo6 xo7 xo8 = k0_pay13 (k0_pay7 x0) xo3 := by
  unfold out0_B_3
  rw [View.read_writes_eq_canon _ _ _ (cover0_B_3 c i a1 h1 a2 h2 a3 h3 a4 h4 a5 h5 a6 h6 a7 h7 a8 h8 a9 h9 hc x0 x1 x2 xo3 xo4 xo5 xo6 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S1024x256) hz, View.ld_unit_zero (S := S256x256) hz, View.ld_unit_zero (S := S1x256) hz]

/-- At the first grid point the first Gram block is first zeroed, read back, and ends as zero plus this block's contribution. -/
theorem outA3 (hc : cond0_0 i) (x0 x1 x2 : Vec F S1024x256 .f32) :
    out0_A_3 c i a1 h1 a2 h2 a3 h3 a4 h4 a5 h5 a6 h6 a7 h7 a8 h8 a9 h9 hc x0 x1 x2 = k0_pay13 (k0_pay7 x0) k0_pay1 := by
  unfold out0_A_3
  rw [View.read_writes_eq_canon _ _ _ (cover0_A_3 c i a1 h1 a2 h2 a3 h3 a4 h4 a5 h5 a6 h6 a7 h7 a8 h8 a9 h9 hc x0 x1 x2)]
  unfold kernelRun0_A
  dsimp only
  sl_unfold_words
  rw [View.canon_cons_unit_zero (S := S256x256) hz, View.readCov_unit_zero (S := S256x256) _ hz]
  simp only [View.readAt_eq_ld, h1.read_unread, h2.read_unread, h3.read_unread, h4.read_unread, h5.read_unread, h6.read_unread, h7.read_unread, h8.read_unread, h9.read_unread, View.ld_unit_zero (S := S1024x256) hz, View.ld_unit_zero (S := S256x256) hz, View.ld_unit_zero (S := S1x256) hz]

/-- At a later grid point the second Gram block ends as the carried value plus this block's contribution: the one covering
    store's payload, its loads reading the whole buffers. -/
theorem outB4 (hc : ¬cond0_0 i) (x0 x1 x2 : Vec F S1024x256 .f32) (xo3 xo4 xo5 : Vec F S256x256 .f32)
    (xo6 xo7 xo8 : Vec F S1x256 .f32) :
    out0_B_4 c i a1 h1 a2 h2 a3 h3 a4 h4 a5 h5 a6 h6 a7 h7 a8 h8 a9 h9 hc x0 x1 x2 xo3 xo4 xo5 xo6 xo7 xo8 = k0_pay14 (k0_pay8 x1) xo4 := by
  unfold out0_B_4
  rw [View.read_writes_eq_canon _ _ _ (cover0_B_4 c i a1 h1 a2 h2 a3 h3 a4 h4 a5 h5 a6 h6 a7 h7 a8 h8 a9 h9 hc x0 x1 x2 xo3 xo4 xo5 xo6 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S1024x256) hz, View.ld_unit_zero (S := S256x256) hz, View.ld_unit_zero (S := S1x256) hz]

/-- At the first grid point the second Gram block is first zeroed, read back, and ends as zero plus this block's contribution. -/
theorem outA4 (hc : cond0_0 i) (x0 x1 x2 : Vec F S1024x256 .f32) :
    out0_A_4 c i a1 h1 a2 h2 a3 h3 a4 h4 a5 h5 a6 h6 a7 h7 a8 h8 a9 h9 hc x0 x1 x2 = k0_pay14 (k0_pay8 x1) k0_pay2 := by
  unfold out0_A_4
  rw [View.read_writes_eq_canon _ _ _ (cover0_A_4 c i a1 h1 a2 h2 a3 h3 a4 h4 a5 h5 a6 h6 a7 h7 a8 h8 a9 h9 hc x0 x1 x2)]
  unfold kernelRun0_A
  dsimp only
  sl_unfold_words
  rw [View.canon_cons_unit_zero (S := S256x256) hz, View.readCov_unit_zero (S := S256x256) _ hz]
  simp only [View.readAt_eq_ld, h1.read_unread, h2.read_unread, h3.read_unread, h4.read_unread, h5.read_unread, h6.read_unread, h7.read_unread, h8.read_unread, h9.read_unread, View.ld_unit_zero (S := S1024x256) hz, View.ld_unit_zero (S := S256x256) hz, View.ld_unit_zero (S := S1x256) hz]

/-- At a later grid point the third Gram block ends as the carried value plus this block's contribution: the one covering
    store's payload, its loads reading the whole buffers. -/
theorem outB5 (hc : ¬cond0_0 i) (x0 x1 x2 : Vec F S1024x256 .f32) (xo3 xo4 xo5 : Vec F S256x256 .f32)
    (xo6 xo7 xo8 : Vec F S1x256 .f32) :
    out0_B_5 c i a1 h1 a2 h2 a3 h3 a4 h4 a5 h5 a6 h6 a7 h7 a8 h8 a9 h9 hc x0 x1 x2 xo3 xo4 xo5 xo6 xo7 xo8 = k0_pay15 (k0_pay9 x2) xo5 := by
  unfold out0_B_5
  rw [View.read_writes_eq_canon _ _ _ (cover0_B_5 c i a1 h1 a2 h2 a3 h3 a4 h4 a5 h5 a6 h6 a7 h7 a8 h8 a9 h9 hc x0 x1 x2 xo3 xo4 xo5 xo6 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S1024x256) hz, View.ld_unit_zero (S := S256x256) hz, View.ld_unit_zero (S := S1x256) hz]

/-- At the first grid point the third Gram block is first zeroed, read back, and ends as zero plus this block's contribution. -/
theorem outA5 (hc : cond0_0 i) (x0 x1 x2 : Vec F S1024x256 .f32) :
    out0_A_5 c i a1 h1 a2 h2 a3 h3 a4 h4 a5 h5 a6 h6 a7 h7 a8 h8 a9 h9 hc x0 x1 x2 = k0_pay15 (k0_pay9 x2) k0_pay3 := by
  unfold out0_A_5
  rw [View.read_writes_eq_canon _ _ _ (cover0_A_5 c i a1 h1 a2 h2 a3 h3 a4 h4 a5 h5 a6 h6 a7 h7 a8 h8 a9 h9 hc x0 x1 x2)]
  unfold kernelRun0_A
  dsimp only
  sl_unfold_words
  rw [View.canon_cons_unit_zero (S := S256x256) hz, View.readCov_unit_zero (S := S256x256) _ hz]
  simp only [View.readAt_eq_ld, h1.read_unread, h2.read_unread, h3.read_unread, h4.read_unread, h5.read_unread, h6.read_unread, h7.read_unread, h8.read_unread, h9.read_unread, View.ld_unit_zero (S := S1024x256) hz, View.ld_unit_zero (S := S256x256) hz, View.ld_unit_zero (S := S1x256) hz]

/-- At a later grid point the first column-sum row ends as the carried value plus this block's contribution: the one covering
    store's payload, its loads reading the whole buffers. -/
theorem outB6 (hc : ¬cond0_0 i) (x0 x1 x2 : Vec F S1024x256 .f32) (xo3 xo4 xo5 : Vec F S256x256 .f32)
    (xo6 xo7 xo8 : Vec F S1x256 .f32) :
    out0_B_6 c i a1 h1 a2 h2 a3 h3 a4 h4 a5 h5 a6 h6 a7 h7 a8 h8 a9 h9 hc x0 x1 x2 xo3 xo4 xo5 xo6 xo7 xo8 = k0_pay10 x0 xo6 := by
  unfold out0_B_6
  rw [View.read_writes_eq_canon _ _ _ (cover0_B_6 c i a1 h1 a2 h2 a3 h3 a4 h4 a5 h5 a6 h6 a7 h7 a8 h8 a9 h9 hc x0 x1 x2 xo3 xo4 xo5 xo6 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S1024x256) hz, View.ld_unit_zero (S := S256x256) hz, View.ld_unit_zero (S := S1x256) hz]

/-- At the first grid point the first column-sum row is first zeroed, read back, and ends as zero plus this block's contribution. -/
theorem outA6 (hc : cond0_0 i) (x0 x1 x2 : Vec F S1024x256 .f32) :
    out0_A_6 c i a1 h1 a2 h2 a3 h3 a4 h4 a5 h5 a6 h6 a7 h7 a8 h8 a9 h9 hc x0 x1 x2 = k0_pay10 x0 k0_pay4 := by
  unfold out0_A_6
  rw [View.read_writes_eq_canon _ _ _ (cover0_A_6 c i a1 h1 a2 h2 a3 h3 a4 h4 a5 h5 a6 h6 a7 h7 a8 h8 a9 h9 hc x0 x1 x2)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h8.read_unread, h9.read_unread, View.ld_unit_zero (S := S1024x256) hz, View.ld_unit_zero (S := S256x256) hz, View.ld_unit_zero (S := S1x256) hz]

/-- At a later grid point the second column-sum row ends as the carried value plus this block's contribution: the one covering
    store's payload, its loads reading the whole buffers. -/
theorem outB7 (hc : ¬cond0_0 i) (x0 x1 x2 : Vec F S1024x256 .f32) (xo3 xo4 xo5 : Vec F S256x256 .f32)
    (xo6 xo7 xo8 : Vec F S1x256 .f32) :
    out0_B_7 c i a1 h1 a2 h2 a3 h3 a4 h4 a5 h5 a6 h6 a7 h7 a8 h8 a9 h9 hc x0 x1 x2 xo3 xo4 xo5 xo6 xo7 xo8 = k0_pay11 (k0_pay8 x1) xo7 := by
  unfold out0_B_7
  rw [View.read_writes_eq_canon _ _ _ (cover0_B_7 c i a1 h1 a2 h2 a3 h3 a4 h4 a5 h5 a6 h6 a7 h7 a8 h8 a9 h9 hc x0 x1 x2 xo3 xo4 xo5 xo6 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S1024x256) hz, View.ld_unit_zero (S := S256x256) hz, View.ld_unit_zero (S := S1x256) hz]

/-- At the first grid point the second column-sum row is first zeroed, read back, and ends as zero plus this block's contribution. -/
theorem outA7 (hc : cond0_0 i) (x0 x1 x2 : Vec F S1024x256 .f32) :
    out0_A_7 c i a1 h1 a2 h2 a3 h3 a4 h4 a5 h5 a6 h6 a7 h7 a8 h8 a9 h9 hc x0 x1 x2 = k0_pay11 (k0_pay8 x1) k0_pay5 := by
  unfold out0_A_7
  rw [View.read_writes_eq_canon _ _ _ (cover0_A_7 c i a1 h1 a2 h2 a3 h3 a4 h4 a5 h5 a6 h6 a7 h7 a8 h8 a9 h9 hc x0 x1 x2)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h8.read_unread, h9.read_unread, View.ld_unit_zero (S := S1024x256) hz, View.ld_unit_zero (S := S256x256) hz, View.ld_unit_zero (S := S1x256) hz]

/-- At a later grid point the third column-sum row ends as the carried value plus this block's contribution: the one covering
    store's payload, its loads reading the whole buffers. -/
theorem outB8 (hc : ¬cond0_0 i) (x0 x1 x2 : Vec F S1024x256 .f32) (xo3 xo4 xo5 : Vec F S256x256 .f32)
    (xo6 xo7 xo8 : Vec F S1x256 .f32) :
    out0_B_8 c i a1 h1 a2 h2 a3 h3 a4 h4 a5 h5 a6 h6 a7 h7 a8 h8 a9 h9 hc x0 x1 x2 xo3 xo4 xo5 xo6 xo7 xo8 = k0_pay12 (k0_pay9 x2) xo8 := by
  unfold out0_B_8
  rw [View.read_writes_eq_canon _ _ _ (cover0_B_8 c i a1 h1 a2 h2 a3 h3 a4 h4 a5 h5 a6 h6 a7 h7 a8 h8 a9 h9 hc x0 x1 x2 xo3 xo4 xo5 xo6 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S1024x256) hz, View.ld_unit_zero (S := S256x256) hz, View.ld_unit_zero (S := S1x256) hz]

/-- At the first grid point the third column-sum row is first zeroed, read back, and ends as zero plus this block's contribution. -/
theorem outA8 (hc : cond0_0 i) (x0 x1 x2 : Vec F S1024x256 .f32) :
    out0_A_8 c i a1 h1 a2 h2 a3 h3 a4 h4 a5 h5 a6 h6 a7 h7 a8 h8 a9 h9 hc x0 x1 x2 = k0_pay12 (k0_pay9 x2) k0_pay6 := by
  unfold out0_A_8
  rw [View.read_writes_eq_canon _ _ _ (cover0_A_8 c i a1 h1 a2 h2 a3 h3 a4 h4 a5 h5 a6 h6 a7 h7 a8 h8 a9 h9 hc x0 x1 x2)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h8.read_unread, h9.read_unread, View.ld_unit_zero (S := S1024x256) hz, View.ld_unit_zero (S := S256x256) hz, View.ld_unit_zero (S := S1x256) hz]

end Cases

/-- The six outputs: three 256 × 256 Gram accumulators and three 1 × 256 column-sum accumulators. -/
abbrev Outs (F : FTy → Type) [FloatOps F] :=
  Vec F S256x256 .f32 × Vec F S256x256 .f32 × Vec F S256x256 .f32 × Vec F S1x256 .f32 × Vec F S1x256 .f32 × Vec F S1x256 .f32

/-- The zero blocks the first point stores. -/
def zero6 : Outs F := (k0_pay1, k0_pay2, k0_pay3, k0_pay4, k0_pay5, k0_pay6)

/-- One grid point: each accumulator receives the contribution of the point's three input blocks. -/
def step (x0 x1 x2 : Vec F S1024x256 .f32) (p : Outs F) : Outs F :=
  (k0_pay13 (k0_pay7 x0) p.1, k0_pay14 (k0_pay8 x1) p.2.1, k0_pay15 (k0_pay9 x2) p.2.2.1,
   k0_pay10 x0 p.2.2.2.1, k0_pay11 (k0_pay8 x1) p.2.2.2.2.1, k0_pay12 (k0_pay9 x2) p.2.2.2.2.2)

variable (m : (ℓ : Loc nD τ sig) → Buf (Elt F) ℓ) (ρ : Dev nD → PrngReg)

/-- The running accumulators after point n. -/
def acc (c : Dev nD) : (n : ℕ) → n < cfg0.N → Outs F
  | 0, h => step (iblk m c 0 ⟨0, h⟩) (iblk m c 1 ⟨0, h⟩) (iblk m c 2 ⟨0, h⟩) zero6
  | n + 1, h => step (iblk m c 0 ⟨n + 1, h⟩) (iblk m c 1 ⟨n + 1, h⟩) (iblk m c 2 ⟨n + 1, h⟩) (acc c n (Nat.lt_of_succ_lt h))

/-- What the staging buffers hold after point n is the running accumulators: by induction on the point. -/
theorem outsAt_eq (c : Dev nD) : ∀ (n : ℕ) (h : n < cfg0.N), outsAt0 m c n h = acc m c n h
  | 0, h => by
    rw [outsAt0_A m c ⟨0, h⟩ rfl, outA3, outA4, outA5, outA6, outA7, outA8]
    rfl
  | n + 1, h => by
    have hN : cfg0.N = 4 := N_0
    have hB : ¬(⟨n + 1, h⟩ : Fin cfg0.N).val % 4 = 0 := by dsimp only; omega
    rw [outsAt0_B m c ⟨n + 1, h⟩ hB, outB3, outB4, outB5, outB6, outB7, outB8]
    show step _ _ _ (outsAt0 m c n _) = step _ _ _ (acc m c n _)
    rw [outsAt_eq c n]

end Cert.KernelIdeal.Pieces

end
-- ==== Proof.KernelRun.lean ====
/-
  The streaming side's run, read: after the last grid point each output array holds the final accumulator (the one
  write-back of each output window happens at the last point and its block is the whole array), and the host
  operations after the region compute the result from those six arrays: 4 times the six Frobenius inner products of
  the Gram matrices, minus 4 times the three squared lengths of the column sums, plus the constant 3 · 4096².
-/
import proofs.«172687_j88081189306970_2_alg».proof.Proof.Pieces

noncomputable section

open Idealize.ShloMosaic Idealize.ShloMosaic.TcCoe Idealize.SL.Sem
open Idealize.ShloMosaic.Pipeline (Dat)

namespace Cert.KernelIdeal.Pieces

open Cert.KernelIdeal Cert.KernelIdeal.Gen Idealize.ShloMosaic.StableHlo

variable {F : FTy → Type} [FloatOps F]

/-- The host operations after the region, as one function of the six output arrays. -/
def tail (G0 G1 G2 : Vec F S256x256 .f32) (s0 s1 s2 : Vec F S1x256 .f32) : (⟨S_, .f32⟩ : BufTy).Contents (Elt F) :=
  addf
    (subf
      (mulf (constant (F := F) S_ .f32 0x40800000#32)
        (addf (addf (addf (addf (addf (Host.reduceAdd (F := F) (mulf G0 G0) (constant (F := F) S_ .f32 0x00000000#32) reducesTo_S256x256_S_d0_1 h_S_)
          (Host.reduceAdd (F := F) (mulf G1 G1) (constant (F := F) S_ .f32 0x00000000#32) reducesTo_S256x256_S_d0_1 h_S_))
          (Host.reduceAdd (F := F) (mulf G2 G2) (constant (F := F) S_ .f32 0x00000000#32) reducesTo_S256x256_S_d0_1 h_S_))
          (Host.reduceAdd (F := F) (mulf G0 G1) (constant (F := F) S_ .f32 0x00000000#32) reducesTo_S256x256_S_d0_1 h_S_))
          (Host.reduceAdd (F := F) (mulf G0 G2) (constant (F := F) S_ .f32 0x00000000#32) reducesTo_S256x256_S_d0_1 h_S_))
          (Host.reduceAdd (F := F) (mulf G1 G2) (constant (F := F) S_ .f32 0x00000000#32) reducesTo_S256x256_S_d0_1 h_S_)))
      (mulf (constant (F := F) S_ .f32 0x40800000#32)
        (addf (addf (Host.reduceAdd (F := F) (mulf s0 s0) (constant (F := F) S_ .f32 0x00000000#32) reducesTo_S1x256_S_d0_1 h_S_)
          (Host.reduceAdd (F := F) (mulf s1 s1) (constant (F := F) S_ .f32 0x00000000#32) reducesTo_S1x256_S_d0_1 h_S_))
          (Host.reduceAdd (F := F) (mulf s2 s2) (constant (F := F) S_ .f32 0x00000000#32) reducesTo_S1x256_S_d0_1 h_S_))))
    (constant (F := F) S_ .f32 0x4C400000#32)

variable (m : (ℓ : Loc nD τ sig) → Buf (Elt F) ℓ) (ρ : Dev nD → PrngReg)

/-- The accumulators after the last point. -/
abbrev result (c : Dev nD) : Outs F := acc m c 3 (by rw [show cfg0.N = 4 from N_0]; decide)

/-- The one write-back of output window 3, at the last point, writes the final accumulator: its block is the whole array. -/
theorem flushed3 (c : Dev nD) (t : Fin cfg0.N) (hf : (cfg0.win 3).flush t = true) :
    (dats m 0 c).flushed 3 t = ((cfg0.win 3).blk t).view.read (Elt F) ((result m c).1) := by
  have hN : cfg0.N = 4 := N_0
  have h3 : t.val = 3 := by have := (flush0_3 t).mp hf; have := t.isLt; omega
  obtain rfl : t = t0_3 := Fin.ext h3
  show (cfg0.win 3).cut (grid0.coords t0_3) ((dats m 0 c).after 3 t0_3) = _
  rw [after0_3, outsAt_eq]
  have hz' : (fun a => win0_3.index t0_3 a * main_v0_0.ty.shape.size a) = fun _ => 0 := funext fun a => by fin_cases a <;> decide
  exact (Memref.read_access_unit_zero (Elt F) main_v0_0 hz' (fun a => by rw [congrFun hz' a]; simp) ((result m c).1)).symm

/-- So the array of output window 3 ends holding the final accumulator. -/
theorem final3 (c : Dev nD) : (dats m 0 c).arrAt 3 cfg0.N = (result m c).1 :=
  (dats m 0 c).arrAt_eq_of_cover 3 ((result m c).1) (flushed3 m c) fun i =>
    ⟨t0_3, (flush0_3 t0_3).mpr rfl, by
      show i ∈ ((View.whole main_v0_0).slice (win0_3.rect t0_3)).set
      rw [View.set_slice_whole, Rect.mem_set_unit]
      intro a
      have h0 : (i 0 : Nat) < 256 := (i 0).isLt
      have h1 : (i 1 : Nat) < 256 := (i 1).isLt
      match a with
      | ⟨0, _⟩ =>
        show win0_3.index t0_3 0 * win0_3.size 0 ≤ (i 0 : Nat) ∧ (i 0 : Nat) < win0_3.index t0_3 0 * win0_3.size 0 + win0_3.xsize (grid0.coords t0_3) 0
        rw [show win0_3.index t0_3 0 * win0_3.size 0 = 0 from by decide +kernel, show win0_3.xsize (grid0.coords t0_3) 0 = 256 from by decide +kernel]; omega
      | ⟨1, _⟩ =>
        show win0_3.index t0_3 1 * win0_3.size 1 ≤ (i 1 : Nat) ∧ (i 1 : Nat) < win0_3.index t0_3 1 * win0_3.size 1 + win0_3.xsize (grid0.coords t0_3) 1
        rw [show win0_3.index t0_3 1 * win0_3.size 1 = 0 from by decide +kernel, show win0_3.xsize (grid0.coords t0_3) 1 = 256 from by decide +kernel]; omega⟩

/-- The one write-back of output window 4, at the last point, writes the final accumulator: its block is the whole array. -/
theorem flushed4 (c : Dev nD) (t : Fin cfg0.N) (hf : (cfg0.win 4).flush t = true) :
    (dats m 0 c).flushed 4 t = ((cfg0.win 4).blk t).view.read (Elt F) ((result m c).2.1) := by
  have hN : cfg0.N = 4 := N_0
  have h3 : t.val = 3 := by have := (flush0_4 t).mp hf; have := t.isLt; omega
  obtain rfl : t = t0_3 := Fin.ext h3
  show (cfg0.win 4).cut (grid0.coords t0_3) ((dats m 0 c).after 4 t0_3) = _
  rw [after0_4, outsAt_eq]
  have hz' : (fun a => win0_4.index t0_3 a * main_v0_1.ty.shape.size a) = fun _ => 0 := funext fun a => by fin_cases a <;> decide
  exact (Memref.read_access_unit_zero (Elt F) main_v0_1 hz' (fun a => by rw [congrFun hz' a]; simp) ((result m c).2.1)).symm

/-- So the array of output window 4 ends holding the final accumulator. -/
theorem final4 (c : Dev nD) : (dats m 0 c).arrAt 4 cfg0.N = (result m c).2.1 :=
  (dats m 0 c).arrAt_eq_of_cover 4 ((result m c).2.1) (flushed4 m c) fun i =>
    ⟨t0_3, (flush0_4 t0_3).mpr rfl, by
      show i ∈ ((View.whole main_v0_1).slice (win0_4.rect t0_3)).set
      rw [View.set_slice_whole, Rect.mem_set_unit]
      intro a
      have h0 : (i 0 : Nat) < 256 := (i 0).isLt
      have h1 : (i 1 : Nat) < 256 := (i 1).isLt
      match a with
      | ⟨0, _⟩ =>
        show win0_4.index t0_3 0 * win0_4.size 0 ≤ (i 0 : Nat) ∧ (i 0 : Nat) < win0_4.index t0_3 0 * win0_4.size 0 + win0_4.xsize (grid0.coords t0_3) 0
        rw [show win0_4.index t0_3 0 * win0_4.size 0 = 0 from by decide +kernel, show win0_4.xsize (grid0.coords t0_3) 0 = 256 from by decide +kernel]; omega
      | ⟨1, _⟩ =>
        show win0_4.index t0_3 1 * win0_4.size 1 ≤ (i 1 : Nat) ∧ (i 1 : Nat) < win0_4.index t0_3 1 * win0_4.size 1 + win0_4.xsize (grid0.coords t0_3) 1
        rw [show win0_4.index t0_3 1 * win0_4.size 1 = 0 from by decide +kernel, show win0_4.xsize (grid0.coords t0_3) 1 = 256 from by decide +kernel]; omega⟩

/-- The one write-back of output window 5, at the last point, writes the final accumulator: its block is the whole array. -/
theorem flushed5 (c : Dev nD) (t : Fin cfg0.N) (hf : (cfg0.win 5).flush t = true) :
    (dats m 0 c).flushed 5 t = ((cfg0.win 5).blk t).view.read (Elt F) ((result m c).2.2.1) := by
  have hN : cfg0.N = 4 := N_0
  have h3 : t.val = 3 := by have := (flush0_5 t).mp hf; have := t.isLt; omega
  obtain rfl : t = t0_3 := Fin.ext h3
  show (cfg0.win 5).cut (grid0.coords t0_3) ((dats m 0 c).after 5 t0_3) = _
  rw [after0_5, outsAt_eq]
  have hz' : (fun a => win0_5.index t0_3 a * main_v0_2.ty.shape.size a) = fun _ => 0 := funext fun a => by fin_cases a <;> decide
  exact (Memref.read_access_unit_zero (Elt F) main_v0_2 hz' (fun a => by rw [congrFun hz' a]; simp) ((result m c).2.2.1)).symm

/-- So the array of output window 5 ends holding the final accumulator. -/
theorem final5 (c : Dev nD) : (dats m 0 c).arrAt 5 cfg0.N = (result m c).2.2.1 :=
  (dats m 0 c).arrAt_eq_of_cover 5 ((result m c).2.2.1) (flushed5 m c) fun i =>
    ⟨t0_3, (flush0_5 t0_3).mpr rfl, by
      show i ∈ ((View.whole main_v0_2).slice (win0_5.rect t0_3)).set
      rw [View.set_slice_whole, Rect.mem_set_unit]
      intro a
      have h0 : (i 0 : Nat) < 256 := (i 0).isLt
      have h1 : (i 1 : Nat) < 256 := (i 1).isLt
      match a with
      | ⟨0, _⟩ =>
        show win0_5.index t0_3 0 * win0_5.size 0 ≤ (i 0 : Nat) ∧ (i 0 : Nat) < win0_5.index t0_3 0 * win0_5.size 0 + win0_5.xsize (grid0.coords t0_3) 0
        rw [show win0_5.index t0_3 0 * win0_5.size 0 = 0 from by decide +kernel, show win0_5.xsize (grid0.coords t0_3) 0 = 256 from by decide +kernel]; omega
      | ⟨1, _⟩ =>
        show win0_5.index t0_3 1 * win0_5.size 1 ≤ (i 1 : Nat) ∧ (i 1 : Nat) < win0_5.index t0_3 1 * win0_5.size 1 + win0_5.xsize (grid0.coords t0_3) 1
        rw [show win0_5.index t0_3 1 * win0_5.size 1 = 0 from by decide +kernel, show win0_5.xsize (grid0.coords t0_3) 1 = 256 from by decide +kernel]; omega⟩

/-- The one write-back of output window 6, at the last point, writes the final accumulator: its block is the whole array. -/
theorem flushed6 (c : Dev nD) (t : Fin cfg0.N) (hf : (cfg0.win 6).flush t = true) :
    (dats m 0 c).flushed 6 t = ((cfg0.win 6).blk t).view.read (Elt F) ((result m c).2.2.2.1) := by
  have hN : cfg0.N = 4 := N_0
  have h3 : t.val = 3 := by have := (flush0_6 t).mp hf; have := t.isLt; omega
  obtain rfl : t = t0_3 := Fin.ext h3
  show (cfg0.win 6).cut (grid0.coords t0_3) ((dats m 0 c).after 6 t0_3) = _
  rw [after0_6, outsAt_eq]
  have hz' : (fun a => win0_6.index t0_3 a * main_v0_3.ty.shape.size a) = fun _ => 0 := funext fun a => by fin_cases a <;> decide
  exact (Memref.read_access_unit_zero (Elt F) main_v0_3 hz' (fun a => by rw [congrFun hz' a]; simp) ((result m c).2.2.2.1)).symm

/-- So the array of output window 6 ends holding the final accumulator. -/
theorem final6 (c : Dev nD) : (dats m 0 c).arrAt 6 cfg0.N = (result m c).2.2.2.1 :=
  (dats m 0 c).arrAt_eq_of_cover 6 ((result m c).2.2.2.1) (flushed6 m c) fun i =>
    ⟨t0_3, (flush0_6 t0_3).mpr rfl, by
      show i ∈ ((View.whole main_v0_3).slice (win0_6.rect t0_3)).set
      rw [View.set_slice_whole, Rect.mem_set_unit]
      intro a
      have h0 : (i 0 : Nat) < 1 := (i 0).isLt
      have h1 : (i 1 : Nat) < 256 := (i 1).isLt
      match a with
      | ⟨0, _⟩ =>
        show win0_6.index t0_3 0 * win0_6.size 0 ≤ (i 0 : Nat) ∧ (i 0 : Nat) < win0_6.index t0_3 0 * win0_6.size 0 + win0_6.xsize (grid0.coords t0_3) 0
        rw [show win0_6.index t0_3 0 * win0_6.size 0 = 0 from by decide +kernel, show win0_6.xsize (grid0.coords t0_3) 0 = 1 from by decide +kernel]; omega
      | ⟨1, _⟩ =>
        show win0_6.index t0_3 1 * win0_6.size 1 ≤ (i 1 : Nat) ∧ (i 1 : Nat) < win0_6.index t0_3 1 * win0_6.size 1 + win0_6.xsize (grid0.coords t0_3) 1
        rw [show win0_6.index t0_3 1 * win0_6.size 1 = 0 from by decide +kernel, show win0_6.xsize (grid0.coords t0_3) 1 = 256 from by decide +kernel]; omega⟩

/-- The one write-back of output window 7, at the last point, writes the final accumulator: its block is the whole array. -/
theorem flushed7 (c : Dev nD) (t : Fin cfg0.N) (hf : (cfg0.win 7).flush t = true) :
    (dats m 0 c).flushed 7 t = ((cfg0.win 7).blk t).view.read (Elt F) ((result m c).2.2.2.2.1) := by
  have hN : cfg0.N = 4 := N_0
  have h3 : t.val = 3 := by have := (flush0_7 t).mp hf; have := t.isLt; omega
  obtain rfl : t = t0_3 := Fin.ext h3
  show (cfg0.win 7).cut (grid0.coords t0_3) ((dats m 0 c).after 7 t0_3) = _
  rw [after0_7, outsAt_eq]
  have hz' : (fun a => win0_7.index t0_3 a * main_v0_4.ty.shape.size a) = fun _ => 0 := funext fun a => by fin_cases a <;> decide
  exact (Memref.read_access_unit_zero (Elt F) main_v0_4 hz' (fun a => by rw [congrFun hz' a]; simp) ((result m c).2.2.2.2.1)).symm

/-- So the array of output window 7 ends holding the final accumulator. -/
theorem final7 (c : Dev nD) : (dats m 0 c).arrAt 7 cfg0.N = (result m c).2.2.2.2.1 :=
  (dats m 0 c).arrAt_eq_of_cover 7 ((result m c).2.2.2.2.1) (flushed7 m c) fun i =>
    ⟨t0_3, (flush0_7 t0_3).mpr rfl, by
      show i ∈ ((View.whole main_v0_4).slice (win0_7.rect t0_3)).set
      rw [View.set_slice_whole, Rect.mem_set_unit]
      intro a
      have h0 : (i 0 : Nat) < 1 := (i 0).isLt
      have h1 : (i 1 : Nat) < 256 := (i 1).isLt
      match a with
      | ⟨0, _⟩ =>
        show win0_7.index t0_3 0 * win0_7.size 0 ≤ (i 0 : Nat) ∧ (i 0 : Nat) < win0_7.index t0_3 0 * win0_7.size 0 + win0_7.xsize (grid0.coords t0_3) 0
        rw [show win0_7.index t0_3 0 * win0_7.size 0 = 0 from by decide +kernel, show win0_7.xsize (grid0.coords t0_3) 0 = 1 from by decide +kernel]; omega
      | ⟨1, _⟩ =>
        show win0_7.index t0_3 1 * win0_7.size 1 ≤ (i 1 : Nat) ∧ (i 1 : Nat) < win0_7.index t0_3 1 * win0_7.size 1 + win0_7.xsize (grid0.coords t0_3) 1
        rw [show win0_7.index t0_3 1 * win0_7.size 1 = 0 from by decide +kernel, show win0_7.xsize (grid0.coords t0_3) 1 = 256 from by decide +kernel]; omega⟩

/-- The one write-back of output window 8, at the last point, writes the final accumulator: its block is the whole array. -/
theorem flushed8 (c : Dev nD) (t : Fin cfg0.N) (hf : (cfg0.win 8).flush t = true) :
    (dats m 0 c).flushed 8 t = ((cfg0.win 8).blk t).view.read (Elt F) ((result m c).2.2.2.2.2) := by
  have hN : cfg0.N = 4 := N_0
  have h3 : t.val = 3 := by have := (flush0_8 t).mp hf; have := t.isLt; omega
  obtain rfl : t = t0_3 := Fin.ext h3
  show (cfg0.win 8).cut (grid0.coords t0_3) ((dats m 0 c).after 8 t0_3) = _
  rw [after0_8, outsAt_eq]
  have hz' : (fun a => win0_8.index t0_3 a * main_v0_5.ty.shape.size a) = fun _ => 0 := funext fun a => by fin_cases a <;> decide
  exact (Memref.read_access_unit_zero (Elt F) main_v0_5 hz' (fun a => by rw [congrFun hz' a]; simp) ((result m c).2.2.2.2.2)).symm

/-- So the array of output window 8 ends holding the final accumulator. -/
theorem final8 (c : Dev nD) : (dats m 0 c).arrAt 8 cfg0.N = (result m c).2.2.2.2.2 :=
  (dats m 0 c).arrAt_eq_of_cover 8 ((result m c).2.2.2.2.2) (flushed8 m c) fun i =>
    ⟨t0_3, (flush0_8 t0_3).mpr rfl, by
      show i ∈ ((View.whole main_v0_5).slice (win0_8.rect t0_3)).set
      rw [View.set_slice_whole, Rect.mem_set_unit]
      intro a
      have h0 : (i 0 : Nat) < 1 := (i 0).isLt
      have h1 : (i 1 : Nat) < 256 := (i 1).isLt
      match a with
      | ⟨0, _⟩ =>
        show win0_8.index t0_3 0 * win0_8.size 0 ≤ (i 0 : Nat) ∧ (i 0 : Nat) < win0_8.index t0_3 0 * win0_8.size 0 + win0_8.xsize (grid0.coords t0_3) 0
        rw [show win0_8.index t0_3 0 * win0_8.size 0 = 0 from by decide +kernel, show win0_8.xsize (grid0.coords t0_3) 0 = 1 from by decide +kernel]; omega
      | ⟨1, _⟩ =>
        show win0_8.index t0_3 1 * win0_8.size 1 ≤ (i 1 : Nat) ∧ (i 1 : Nat) < win0_8.index t0_3 1 * win0_8.size 1 + win0_8.xsize (grid0.coords t0_3) 1
        rw [show win0_8.index t0_3 1 * win0_8.size 1 = 0 from by decide +kernel, show win0_8.xsize (grid0.coords t0_3) 1 = 256 from by decide +kernel]; omega⟩

set_option maxHeartbeats 8000000 in
set_option maxRecDepth 8192 in
/-- The result buffer after the host operations that follow the region: the tail function of the final accumulators. -/
theorem tail_eq (c : Dev nD) : Pipeline.afterTail₀ cfgs (dats m) 0 (V0 m) [hostOps1] c main_v29
    = tail (result m c).1 (result m c).2.1 (result m c).2.2.1 (result m c).2.2.2.1 (result m c).2.2.2.2.1 (result m c).2.2.2.2.2 := by
  have e3 : Pipeline.withArrays (cfgs 0).spec c (V0 m c) (fun w => (dats m 0 c).arrAt w (cfgs 0).N) (Proc.devRef .tc main_v0_0)
      = (result m c).1 := (Pipeline.withArrays_arr spec0 launch0.win.arr_inj c _ _ 3).trans (final3 m c)
  have e4 : Pipeline.withArrays (cfgs 0).spec c (V0 m c) (fun w => (dats m 0 c).arrAt w (cfgs 0).N) (Proc.devRef .tc main_v0_1)
      = (result m c).2.1 := (Pipeline.withArrays_arr spec0 launch0.win.arr_inj c _ _ 4).trans (final4 m c)
  have e5 : Pipeline.withArrays (cfgs 0).spec c (V0 m c) (fun w => (dats m 0 c).arrAt w (cfgs 0).N) (Proc.devRef .tc main_v0_2)
      = (result m c).2.2.1 := (Pipeline.withArrays_arr spec0 launch0.win.arr_inj c _ _ 5).trans (final5 m c)
  have e6 : Pipeline.withArrays (cfgs 0).spec c (V0 m c) (fun w => (dats m 0 c).arrAt w (cfgs 0).N) (Proc.devRef .tc main_v0_3)
      = (result m c).2.2.2.1 := (Pipeline.withArrays_arr spec0 launch0.win.arr_inj c _ _ 6).trans (final6 m c)
  have e7 : Pipeline.withArrays (cfgs 0).spec c (V0 m c) (fun w => (dats m 0 c).arrAt w (cfgs 0).N) (Proc.devRef .tc main_v0_4)
      = (result m c).2.2.2.2.1 := (Pipeline.withArrays_arr spec0 launch0.win.arr_inj c _ _ 7).trans (final7 m c)
  have e8 : Pipeline.withArrays (cfgs 0).spec c (V0 m c) (fun w => (dats m 0 c).arrAt w (cfgs 0).N) (Proc.devRef .tc main_v0_5)
      = (result m c).2.2.2.2.2 := (Pipeline.withArrays_arr spec0 launch0.win.arr_inj c _ _ 8).trans (final8 m c)
  unfold Pipeline.afterTail₀
  show StableHlo.after hostOps1 _ (Proc.devRef .tc main_v29) = _
  after_results_simp
  rw [e3, e4, e5, e6, e7, e8]
  rfl

/-- The run, read: the result at the tail function of the final accumulators, the arguments unchanged. -/
theorem run : θ_run defs (onTc (τ := τ) (main (F := F))) ⟨m, fun _ => 0, ρ⟩ fun r => ∀ c : Dev nD,
      r.2.mem ((c.tc : Thread nD τ).loc main_v29) = tail (result m c).1 (result m c).2.1 (result m c).2.2.1 (result m c).2.2.2.1 (result m c).2.2.2.2.1 (result m c).2.2.2.2.2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v29 (Pipeline.mem_restRefs_of _ rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Pieces

end
-- ==== Proof.Consts.lean ====
/-
  The float literals the two programs spell, as the extended reals they denote: 1, 2, 4, 3·2²⁴ = 50331648, and the
  small positive clamp of the norms (only its being a positive real matters).
-/
import Idealize.ShloMosaic.PureOps.Ideal

noncomputable section

namespace Cert.Consts

open Idealize.ShloMosaic

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

theorem ofBits_big : Ideal.ofBits .f32 0x4C400000#32 = ((50331648 : ℝ) : EReal) := by
  simp [Ideal.ofBits, Ideal.ieee, -EReal.coe_mul]; norm_num

theorem ofBits_eps : ∃ r : ℝ, 0 < r ∧ Ideal.ofBits .f32 0x322BCC77#32 = (r : EReal) := by
  refine ⟨_, ?_, by simp [Ideal.ofBits, Ideal.ieee, -EReal.coe_mul]; rfl⟩
  norm_num

end Cert.Consts

end
-- ==== Proof.GramAlgebra.lean ====
/-
  The algebra that joins the two sides, over the reals and then over the extended reals.

  For row-normalised matrices a, b (rows i, columns d) write  (a bᵀ)(i, j) = ∑ d, a i d * b j d,
  Gram a (d, e) = ∑ i, a i d * a i e  and  colsum a d = ∑ i, a i d.  Then
      ∑ i j, (a bᵀ)(i, j)²  =  ∑ d e, Gram a (d, e) * Gram b (d, e)        (both are ∑ i j d e, a i d b j d a i e b j e)
      ∑ i j, (a aᵀ)(i, j)   =  ∑ d, (colsum a d)²
  and  (2 x - 1)² = 4 x² - 4 x + 1  summed over the B² pairs (i, j) gives the constant B².
  The loss  ∑ₖ ∑ (2 (nₖ nₖᵀ) - 1)² + ∑ₖ<ₗ ∑ (2 (nₖ nₗᵀ))²  is therefore
      4 ∑ₖ≤ₗ ⟨Gram nₖ, Gram nₗ⟩ - 4 ∑ₖ |colsum nₖ|² + 3 B².
  Distributivity is used throughout, so the entries must be real numbers: the law is proved in ℝ and carried to the
  extended reals by pushing the coercion through products, sums and differences.
-/
import Idealize.ShloMosaic.PureOps.Ideal.Laws

noncomputable section

namespace Cert.GramAlgebra

open Finset

/-- The coercion of the reals into the extended reals commutes with finite sums. -/
theorem coe_sum {ι : Type*} (s : Finset ι) (f : ι → ℝ) :
    (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

section Real

variable {ι κ : Type*} [Fintype ι] [Fintype κ]

/-- Four nested finite sums, the inner pair moved outside. -/
theorem sum4_comm (F : ι → ι → κ → κ → ℝ) :
    ∑ i, ∑ j, ∑ d, ∑ e, F i j d e = ∑ d, ∑ e, ∑ i, ∑ j, F i j d e := by
  calc ∑ i, ∑ j, ∑ d, ∑ e, F i j d e
      = ∑ i, ∑ d, ∑ j, ∑ e, F i j d e := Finset.sum_congr rfl fun i _ => Finset.sum_comm
    _ = ∑ d, ∑ i, ∑ j, ∑ e, F i j d e := Finset.sum_comm
    _ = ∑ d, ∑ i, ∑ e, ∑ j, F i j d e :=
        Finset.sum_congr rfl fun d _ => Finset.sum_congr rfl fun i _ => Finset.sum_comm
    _ = ∑ d, ∑ e, ∑ i, ∑ j, F i j d e := Finset.sum_congr rfl fun d _ => Finset.sum_comm

/-- The squared entries of a bᵀ sum to the Frobenius inner product of the two Gram matrices. -/
theorem sum_sq_dot (a b : ι → κ → ℝ) :
    ∑ i, ∑ j, (∑ d, a i d * b j d) * (∑ d, a i d * b j d)
      = ∑ d, ∑ e, (∑ i, a i d * a i e) * (∑ j, b j d * b j e) := by
  simp only [Finset.sum_mul_sum]
  rw [sum4_comm]
  exact Finset.sum_congr rfl fun d _ => Finset.sum_congr rfl fun e _ => Finset.sum_congr rfl fun i _ =>
    Finset.sum_congr rfl fun j _ => by ring

/-- The entries of a aᵀ sum to the squared length of the column sums. -/
theorem sum_dot (a : ι → κ → ℝ) :
    ∑ i, ∑ j, ∑ d, a i d * a j d = ∑ d, (∑ i, a i d) * (∑ j, a j d) := by
  simp only [Finset.sum_mul_sum]
  calc ∑ i, ∑ j, ∑ d, a i d * a j d
      = ∑ i, ∑ d, ∑ j, a i d * a j d := Finset.sum_congr rfl fun i _ => Finset.sum_comm
    _ = ∑ d, ∑ i, ∑ j, a i d * a j d := Finset.sum_comm

/-- (2x - 1)² summed over all pairs. -/
theorem sum_sq_shift (x : ι → ι → ℝ) :
    ∑ i, ∑ j, (x i j * 2 - 1) * (x i j * 2 - 1)
      = 4 * (∑ i, ∑ j, x i j * x i j) - 4 * (∑ i, ∑ j, x i j) + (Fintype.card ι : ℝ) * (Fintype.card ι : ℝ) := by
  have h : ∀ i j, (x i j * 2 - 1) * (x i j * 2 - 1) = 4 * (x i j * x i j) - 4 * x i j + 1 := fun i j => by ring
  simp only [h, Finset.sum_add_distrib, Finset.sum_sub_distrib, ← Finset.mul_sum, Finset.sum_const, Finset.card_univ,
    nsmul_eq_mul, mul_one]

/-- (2x)² summed over all pairs. -/
theorem sum_sq_scale (x : ι → ι → ℝ) :
    ∑ i, ∑ j, (x i j * 2) * (x i j * 2) = 4 * (∑ i, ∑ j, x i j * x i j) := by
  have h : ∀ i j, (x i j * 2) * (x i j * 2) = 4 * (x i j * x i j) := fun i j => by ring
  simp only [h, ← Finset.mul_sum]

end Real

end Cert.GramAlgebra

end
-- ==== Proof.LossSpec.lean ====
/-
  The two programs' results as functions of the three row-normalised matrices n₀, n₁, n₂ (4096 rows, 256 columns),
  and the law that they are equal when every entry is a real number.

  One side streams the rows once: it forms the three 256 × 256 Gram matrices  Gₖ = nₖᵀ nₖ  and the three column-sum
  vectors  sₖ = ∑ᵢ nₖ i ·, and returns  4 ∑ₖ≤ₗ ⟨Gₖ, Gₗ⟩ - 4 ∑ₖ sₖ·sₖ + 3·4096².
  The other forms the six 4096 × 4096 similarity matrices  2 nₖ nₗᵀ  and sums  (sim - 1)²  on the three diagonal pairs
  and  sim²  on the three off-diagonal pairs.
-/
import proofs.«172687_j88081189306970_2_alg».proof.Proof.GramAlgebra

noncomputable section

namespace Cert.LossSpec

open Finset Cert.GramAlgebra

/-- A 4096 × 256 matrix of extended reals. -/
abbrev Mat := Fin 4096 → Fin 256 → EReal

/-- Gram matrix aᵀ a. -/
def gram (a : Mat) (d e : Fin 256) : EReal := ∑ i, a i d * a i e
/-- Column sums. -/
def colsum (a : Mat) (d : Fin 256) : EReal := ∑ i, a i d
/-- Frobenius inner product of two 256 × 256 matrices. -/
def frob (A B : Fin 256 → Fin 256 → EReal) : EReal := ∑ d, ∑ e, A d e * B d e
/-- Squared length of a 256-vector. -/
def dotv (s : Fin 256 → EReal) : EReal := ∑ d, s d * s d

/-- The streaming side's result. -/
def lossK (n0 n1 n2 : Mat) : EReal :=
  ((4 : ℝ) : EReal) * (((((frob (gram n0) (gram n0) + frob (gram n1) (gram n1)) + frob (gram n2) (gram n2))
      + frob (gram n0) (gram n1)) + frob (gram n0) (gram n2)) + frob (gram n1) (gram n2))
    - ((4 : ℝ) : EReal) * ((dotv (colsum n0) + dotv (colsum n1)) + dotv (colsum n2))
    + ((50331648 : ℝ) : EReal)

/-- Entry (i, j) of the similarity matrix 2 a bᵀ. -/
def sim (a b : Mat) (i j : Fin 4096) : EReal := (∑ d, a i d * b j d) * ((2 : ℝ) : EReal)
/-- ∑ (sim - 1)² over all pairs, for a matrix against itself. -/
def pos (a : Mat) : EReal := ∑ i, ∑ j, (sim a a i j - ((1 : ℝ) : EReal)) * (sim a a i j - ((1 : ℝ) : EReal))
/-- ∑ sim² over all pairs. -/
def neg (a b : Mat) : EReal := ∑ i, ∑ j, sim a b i j * sim a b i j

/-- The quadratic side's result. -/
def lossR (n0 n1 n2 : Mat) : EReal :=
  ((pos n0 + pos n1) + pos n2) + ((neg n0 n1 + neg n0 n2) + neg n1 n2)

/-- The law over the reals. -/
theorem loss_real (r0 r1 r2 : Fin 4096 → Fin 256 → ℝ) :
    4 * ((((((∑ d, ∑ e, (∑ i, r0 i d * r0 i e) * (∑ i, r0 i d * r0 i e))
        + (∑ d, ∑ e, (∑ i, r1 i d * r1 i e) * (∑ i, r1 i d * r1 i e)))
        + (∑ d, ∑ e, (∑ i, r2 i d * r2 i e) * (∑ i, r2 i d * r2 i e)))
        + (∑ d, ∑ e, (∑ i, r0 i d * r0 i e) * (∑ i, r1 i d * r1 i e)))
        + (∑ d, ∑ e, (∑ i, r0 i d * r0 i e) * (∑ i, r2 i d * r2 i e)))
        + (∑ d, ∑ e, (∑ i, r1 i d * r1 i e) * (∑ i, r2 i d * r2 i e)))
      - 4 * (((∑ d, (∑ i, r0 i d) * (∑ i, r0 i d)) + (∑ d, (∑ i, r1 i d) * (∑ i, r1 i d)))
        + (∑ d, (∑ i, r2 i d) * (∑ i, r2 i d)))
      + 50331648
    = (((∑ i, ∑ j, ((∑ d, r0 i d * r0 j d) * 2 - 1) * ((∑ d, r0 i d * r0 j d) * 2 - 1))
        + (∑ i, ∑ j, ((∑ d, r1 i d * r1 j d) * 2 - 1) * ((∑ d, r1 i d * r1 j d) * 2 - 1)))
        + (∑ i, ∑ j, ((∑ d, r2 i d * r2 j d) * 2 - 1) * ((∑ d, r2 i d * r2 j d) * 2 - 1)))
      + (((∑ i, ∑ j, ((∑ d, r0 i d * r1 j d) * 2) * ((∑ d, r0 i d * r1 j d) * 2))
        + (∑ i, ∑ j, ((∑ d, r0 i d * r2 j d) * 2) * ((∑ d, r0 i d * r2 j d) * 2)))
        + (∑ i, ∑ j, ((∑ d, r1 i d * r2 j d) * 2) * ((∑ d, r1 i d * r2 j d) * 2))) := by
  have p0 := sum_sq_shift (fun i j => ∑ d, r0 i d * r0 j d)
  have p1 := sum_sq_shift (fun i j => ∑ d, r1 i d * r1 j d)
  have p2 := sum_sq_shift (fun i j => ∑ d, r2 i d * r2 j d)
  have q01 := sum_sq_scale (fun i j => ∑ d, r0 i d * r1 j d)
  have q02 := sum_sq_scale (fun i j => ∑ d, r0 i d * r2 j d)
  have q12 := sum_sq_scale (fun i j => ∑ d, r1 i d * r2 j d)
  have g00 := sum_sq_dot r0 r0
  have g11 := sum_sq_dot r1 r1
  have g22 := sum_sq_dot r2 r2
  have g01 := sum_sq_dot r0 r1
  have g02 := sum_sq_dot r0 r2
  have g12 := sum_sq_dot r1 r2
  have s0 := sum_dot r0
  have s1 := sum_dot r1
  have s2 := sum_dot r2
  simp only [Fintype.card_fin] at p0 p1 p2
  push_cast at p0 p1 p2
  linarith

/-- The law over the extended reals: with real entries the two results are equal. -/
theorem loss_eq (n0 n1 n2 : Mat) (h0 : ∀ i d, ∃ r : ℝ, n0 i d = (r : EReal)) (h1 : ∀ i d, ∃ r : ℝ, n1 i d = (r : EReal))
    (h2 : ∀ i d, ∃ r : ℝ, n2 i d = (r : EReal)) : lossK n0 n1 n2 = lossR n0 n1 n2 := by
  choose r0 hr0 using h0
  choose r1 hr1 using h1
  choose r2 hr2 using h2
  obtain rfl : n0 = fun i d => ((r0 i d : ℝ) : EReal) := funext fun i => funext fun d => hr0 i d
  obtain rfl : n1 = fun i d => ((r1 i d : ℝ) : EReal) := funext fun i => funext fun d => hr1 i d
  obtain rfl : n2 = fun i d => ((r2 i d : ℝ) : EReal) := funext fun i => funext fun d => hr2 i d
  simp only [lossK, lossR, gram, colsum, frob, dotv, sim, pos, neg, ← EReal.coe_mul, coe_sum, ← EReal.coe_add,
    ← EReal.coe_sub]
  rw [EReal.coe_eq_coe_iff]
  exact loss_real r0 r1 r2

end Cert.LossSpec

end
-- ==== Proof.Norm.lean ====
/-
  Row normalisation with a clamped norm: entry (i, d) of z divided by max(‖zᵢ‖, ε), where ‖zᵢ‖² = ∑ₖ z(i,k)² and
  ε is the small positive clamp. When every entry of z is a real number, so is every normalised entry: the sum of
  squares is a nonnegative real, its square root a real, the clamped norm a real that is at least ε > 0, and a
  quotient by a nonzero real is a product with its reciprocal.
-/
import proofs.«172687_j88081189306970_2_alg».proof.Proof.Consts
import proofs.«172687_j88081189306970_2_alg».proof.Proof.LossSpec
import Idealize.ShloMosaic.Lib.ValueIdx

noncomputable section

namespace Cert.Norm

open Idealize.ShloMosaic Idealize.ShloMosaic.ValueIdx

/-- The row-normalised matrix of a 4096 × 256 array of extended reals. -/
def nrm (z : (⟨2, ![4096, 256]⟩ : Shape).Idx → EReal) : Cert.LossSpec.Mat := fun i d =>
  Ideal.div (z (ix2 i d))
    (max (Ideal.sqrt (∑ k : Fin 256, z (ix2 i k) * z (ix2 i k))) (Ideal.ofBits .f32 0x322BCC77#32))

theorem nrm_apply (z : (⟨2, ![4096, 256]⟩ : Shape).Idx → EReal) (i : Fin 4096) (d : Fin 256) :
    nrm z i d = Ideal.div (z (ix2 i d))
      (max (Ideal.sqrt (∑ k : Fin 256, z (ix2 i k) * z (ix2 i k))) (Ideal.ofBits .f32 0x322BCC77#32)) := rfl

/-- The maximum of two reals, taken in the extended reals, is their real maximum. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- Real entries stay real under the normalisation. -/
theorem nrm_real (z : (⟨2, ![4096, 256]⟩ : Shape).Idx → EReal) (hz : ∀ j, ∃ r : ℝ, z j = (r : EReal))
    (i : Fin 4096) (d : Fin 256) : ∃ r : ℝ, nrm z i d = (r : EReal) := by
  choose r hr using hz
  obtain ⟨e, he, hE⟩ := Cert.Consts.ofBits_eps
  have hs : (∑ k : Fin 256, z (ix2 i k) * z (ix2 i k))
      = ((∑ k : Fin 256, r (ix2 i k) * r (ix2 i k) : ℝ) : EReal) := by
    simp only [hr, ← EReal.coe_mul, Cert.GramAlgebra.coe_sum]
  have hnn : ¬ (∑ k : Fin 256, r (ix2 i k) * r (ix2 i k)) < 0 :=
    not_lt.mpr (Finset.sum_nonneg fun k _ => mul_self_nonneg _)
  rw [nrm_apply, hs, Ideal.sqrt_coe, if_neg hnn, hE, max_coe,
    Ideal.div_coe (ne_of_gt (lt_of_lt_of_le he (le_max_right _ _))), hr, ← EReal.coe_mul]
  exact ⟨_, rfl⟩

end Cert.Norm

end
-- ==== Proof.LibKeepdims.lean ====
/-
  Column forms of the small layout operations, and one-axis sums of a matrix, read at an entry.

  A length-a vector cast to an a × 1 column reads, at (i, 0), the vector at i; an a × 1 column broadcast to a × b
  reads, at (i, j), the column at (i, 0). Over the extended reals the sum of an R × C matrix along its second axis
  (from the zero word) reads, at r, the sum over k of the entries (r, k), and along its first axis, at c, the sum over
  k of the entries (k, c).
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[R, C]` matrix along axis 1, read at row `r`. -/
theorem sum_axis1_apply {R C : ℕ} (src : FVec Ideal (⟨2, ![R, C]⟩ : Shape) .f32)
    (h : (⟨2, ![R, C]⟩ : Shape).Reduces [1] ⟨1, ![R]⟩) (hφ : FKind.Formats .f32)
    (hacc : (0x00000000#32 : BitVec 32) = 0x00000000#32) (r : Fin R) :
    multiReduction .add [1] ⟨1, ![R]⟩ src 0x00000000#32 h hφ hacc (ix1 r) = ∑ k : Fin C, src (ix2 r k) :=
  (Ideal.multiReduction_add_single src 0x00000000#32 h hφ hacc (ix1 r)).trans
    (Finset.sum_congr rfl fun k _ => congrArg src (funext fun c => Fin.ext (by
      match c with
      | ⟨0, _⟩ => rfl
      | ⟨1, _⟩ => rfl)))

/-- The sum of an `[R, C]` matrix along axis 0, read at column `c`. -/
theorem sum_axis0_apply {R C : ℕ} (src : FVec Ideal (⟨2, ![R, C]⟩ : Shape) .f32)
    (h : (⟨2, ![R, C]⟩ : Shape).Reduces [0] ⟨1, ![C]⟩) (hφ : FKind.Formats .f32)
    (hacc : (0x00000000#32 : BitVec 32) = 0x00000000#32) (c : Fin C) :
    multiReduction .add [0] ⟨1, ![C]⟩ src 0x00000000#32 h hφ hacc (ix1 c) = ∑ k : Fin R, src (ix2 k c) :=
  (Ideal.multiReduction_add_single src 0x00000000#32 h hφ hacc (ix1 c)).trans
    (Finset.sum_congr rfl fun k _ => congrArg src (funext fun a => Fin.ext (by
      match a with
      | ⟨0, _⟩ => rfl
      | ⟨1, _⟩ => rfl)))

end Cert.LibKeepdims

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.BlockValue.lean ====
/-
  The streaming side's six output arrays, read entry by entry over the extended reals.

  A block of 1024 rows, normalised inside the body, is the corresponding 1024 rows of the normalised matrix of the whole
  argument (normalisation is row by row). One grid point adds to a Gram accumulator, at (d, e), the sum over the block's
  rows r of n(r, d) n(r, e) (the product of the block's transpose with the block, into the zero accumulator), and to a
  column-sum accumulator, at d, the sum over the block's rows of n(r, d). Four points from the zero blocks give the sums
  over all 4096 rows, block after block: the Gram matrix and the column sums of the normalised matrix.
-/
import proofs.«172687_j88081189306970_2_alg».proof.Proof.KernelRun
import proofs.«172687_j88081189306970_2_alg».proof.Proof.Norm
import proofs.«172687_j88081189306970_2_alg».proof.Proof.LibKeepdims
import proofs.«172687_j88081189306970_2_alg».proof.Proof.LibMatmul
import Idealize.ShloMosaic.Lib.ValueLayout

noncomputable section

open Idealize.ShloMosaic Idealize.ShloMosaic.TcCoe Idealize.SL.Sem Idealize.ShloMosaic.ValueIdx

namespace Cert.KernelIdeal.BlockValue

open Cert.KernelIdeal Cert.KernelIdeal.Gen Cert.KernelIdeal.Pieces Cert.LibKeepdims Cert.Norm Cert.LossSpec

/-- A block divided by its clamped row norms, at entry (r, d). -/
theorem pay7_apply (x : Vec Ideal S1024x256 .f32) (r : Fin 1024) (d : Fin 256) :
    k0_pay7 (F := Ideal) x (ix2 r d) = Ideal.div (x (ix2 r d))
      (max (Ideal.sqrt (∑ k : Fin 256, x (ix2 r k) * x (ix2 r k))) (Ideal.ofBits .f32 0x322BCC77#32)) := by
  unfold k0_pay7
  refine congrArg (Ideal.div (x (ix2 r d))) ?_
  refine (broadcastTo_a1_ab_apply _ _ r d).trans ?_
  refine congrArg (fun s => max (Ideal.sqrt s) (Ideal.ofBits .f32 0x322BCC77#32)) ?_
  refine (shapeCast_a_a1_apply _ _ r 0).trans ?_
  exact sum_axis1_apply _ _ _ _ r

theorem pay8_eq : @k0_pay8 Ideal _ = @k0_pay7 Ideal _ := rfl
theorem pay9_eq : @k0_pay9 Ideal _ = @k0_pay7 Ideal _ := rfl

/-- One point's update of a column-sum accumulator, at column d. -/
theorem pay11_apply (n : FVec Ideal S1024x256 .f32) (a : Vec Ideal S1x256 .f32) (u : Fin 1) (d : Fin 256) :
    k0_pay11 (F := Ideal) n a (ix2 u d) = a (ix2 u d) + ∑ r : Fin 1024, n (ix2 r d) := by
  unfold k0_pay11
  show shapeCast S1x256 a _ (ix2 u d) + shapeCast S1x256 _ _ (ix2 u d) = _
  rw [shapeCast_self]
  refine congrArg (a (ix2 u d) + ·) ?_
  refine (shapeCast_a_1a_apply _ _ u d).trans ?_
  exact sum_axis0_apply _ _ _ _ d

theorem pay10_eq (x : Vec Ideal S1024x256 .f32) (a : Vec Ideal S1x256 .f32) :
    k0_pay10 (F := Ideal) x a = k0_pay11 (F := Ideal) (k0_pay7 x) a := rfl
theorem pay12_eq : @k0_pay12 Ideal _ = @k0_pay11 Ideal _ := rfl

/-- One point's update of a Gram accumulator, at entry (d, e). -/
theorem pay13_apply (n : FVec Ideal S1024x256 .f32) (a : Vec Ideal S256x256 .f32) (d e : Fin 256) :
    k0_pay13 (F := Ideal) n a (ix2 d e) = a (ix2 d e) + ∑ r : Fin 1024, n (ix2 r d) * n (ix2 r e) := by
  unfold k0_pay13
  show shapeCast S256x256 a _ (ix2 d e) + _ = _
  rw [shapeCast_self]
  refine congrArg (a (ix2 d e) + ·) ?_
  refine (Cert.LibMatmul.matmul_zero_ix2 dot_S256x1024_S1024x256_S256x256_1_0_0_1_n_n rfl rfl
    (fun i q => by
      unfold DotDims.lhsIdx
      rw [dif_neg (show ¬(0 : Fin S256x1024.rank) ∈ dot_S256x1024_S1024x256_S256x256_1_0_0_1_n_n.lhsBatch by decide),
        dif_pos (show (0 : Fin S256x1024.rank) ∈ dot_S256x1024_S1024x256_S256x256_1_0_0_1_n_n.lhsNonContracting by decide)]
      rfl)
    (fun i q => dot_S256x1024_S1024x256_S256x256_1_0_0_1_n_n.lhsIdx_val_of_single rfl i q)
    (fun i q => dot_S256x1024_S1024x256_S256x256_1_0_0_1_n_n.rhsIdx_val_of_single rfl i q)
    (fun i q => by
      unfold DotDims.rhsIdx
      rw [dif_neg (show ¬(1 : Fin S1024x256.rank) ∈ dot_S256x1024_S1024x256_S256x256_1_0_0_1_n_n.rhsBatch by decide),
        dif_pos (show (1 : Fin S1024x256.rank) ∈ dot_S256x1024_S1024x256_S256x256_1_0_0_1_n_n.rhsNonContracting by decide)]
      rfl)
    none _ _ d e).trans ?_
  refine Finset.sum_congr rfl fun k _ => ?_
  rw [transpose_ix2_apply]
  rfl

theorem pay14_eq : @k0_pay14 Ideal _ = @k0_pay13 Ideal _ := rfl
theorem pay15_eq : @k0_pay15 Ideal _ = @k0_pay13 Ideal _ := rfl

/-! ## Blocks of rows -/

variable (m : (ℓ : Loc nD τ sig) → Buf (Elt Ideal) ℓ)

/-- Row r of the block streamed at point t is row 1024 t + r of the array. -/
def rowOf (t : Fin cfg0.N) (r : Fin 1024) : Fin 4096 :=
  ⟨1024 * t.val + r.val, by have := t.isLt; have := r.isLt; have : cfg0.N = 4 := N_0; omega⟩

theorem idx_facts0 : ∀ t : Fin cfg0.N, win0_0.index t (0 : Fin 2) = t.val ∧ win0_0.index t (1 : Fin 2) = 0 :=
  (by decide +kernel : ∀ t : Fin grid0.N, _)

/-- Entry (r, l) of input 0's block at point t is entry (1024 t + r, l) of the argument array. -/
theorem blk0_apply (c : Dev nD) (t : Fin cfg0.N) (r : Fin 1024) (l : Fin 256) :
    (iblk m c 0 t : Vec Ideal S1024x256 .f32) (ix2 r l) = m ((c.tc : Thread nD τ).loc main_arg0) (ix2 (rowOf t r) l) := by
  have hi := idx_facts0 t
  unfold iblk
  rw [View.read_apply]
  show m ((c.tc : Thread nD τ).loc main_arg0) _ = m ((c.tc : Thread nD τ).loc main_arg0) _
  congr 1
  funext a
  apply Fin.ext
  match a with
  | ⟨0, _⟩ => show win0_0.index t 0 * 1024 + 1 * r.val = 1024 * t.val + r.val; rw [hi.1]; omega
  | ⟨1, _⟩ => show win0_0.index t 1 * 256 + 1 * l.val = l.val; rw [hi.2]; omega

/-- The block, normalised inside the body, is the block of rows of the normalised argument. -/
theorem nblk0_apply (c : Dev nD) (t : Fin cfg0.N) (r : Fin 1024) (d : Fin 256) :
    k0_pay7 (F := Ideal) (iblk m c 0 t) (ix2 r d) = nrm (m ((c.tc : Thread nD τ).loc main_arg0)) (rowOf t r) d := by
  rw [pay7_apply, nrm_apply]
  simp only [blk0_apply m c t]

theorem idx_facts1 : ∀ t : Fin cfg0.N, win0_1.index t (0 : Fin 2) = t.val ∧ win0_1.index t (1 : Fin 2) = 0 :=
  (by decide +kernel : ∀ t : Fin grid0.N, _)

/-- Entry (r, l) of input 1's block at point t is entry (1024 t + r, l) of the argument array. -/
theorem blk1_apply (c : Dev nD) (t : Fin cfg0.N) (r : Fin 1024) (l : Fin 256) :
    (iblk m c 1 t : Vec Ideal S1024x256 .f32) (ix2 r l) = m ((c.tc : Thread nD τ).loc main_arg1) (ix2 (rowOf t r) l) := by
  have hi := idx_facts1 t
  unfold iblk
  rw [View.read_apply]
  show m ((c.tc : Thread nD τ).loc main_arg1) _ = m ((c.tc : Thread nD τ).loc main_arg1) _
  congr 1
  funext a
  apply Fin.ext
  match a with
  | ⟨0, _⟩ => show win0_1.index t 0 * 1024 + 1 * r.val = 1024 * t.val + r.val; rw [hi.1]; omega
  | ⟨1, _⟩ => show win0_1.index t 1 * 256 + 1 * l.val = l.val; rw [hi.2]; omega

/-- The block, normalised inside the body, is the block of rows of the normalised argument. -/
theorem nblk1_apply (c : Dev nD) (t : Fin cfg0.N) (r : Fin 1024) (d : Fin 256) :
    k0_pay7 (F := Ideal) (iblk m c 1 t) (ix2 r d) = nrm (m ((c.tc : Thread nD τ).loc main_arg1)) (rowOf t r) d := by
  rw [pay7_apply, nrm_apply]
  simp only [blk1_apply m c t]

theorem idx_facts2 : ∀ t : Fin cfg0.N, win0_2.index t (0 : Fin 2) = t.val ∧ win0_2.index t (1 : Fin 2) = 0 :=
  (by decide +kernel : ∀ t : Fin grid0.N, _)

/-- Entry (r, l) of input 2's block at point t is entry (1024 t + r, l) of the argument array. -/
theorem blk2_apply (c : Dev nD) (t : Fin cfg0.N) (r : Fin 1024) (l : Fin 256) :
    (iblk m c 2 t : Vec Ideal S1024x256 .f32) (ix2 r l) = m ((c.tc : Thread nD τ).loc main_arg2) (ix2 (rowOf t r) l) := by
  have hi := idx_facts2 t
  unfold iblk
  rw [View.read_apply]
  show m ((c.tc : Thread nD τ).loc main_arg2) _ = m ((c.tc : Thread nD τ).loc main_arg2) _
  congr 1
  funext a
  apply Fin.ext
  match a with
  | ⟨0, _⟩ => show win0_2.index t 0 * 1024 + 1 * r.val = 1024 * t.val + r.val; rw [hi.1]; omega
  | ⟨1, _⟩ => show win0_2.index t 1 * 256 + 1 * l.val = l.val; rw [hi.2]; omega

/-- The block, normalised inside the body, is the block of rows of the normalised argument. -/
theorem nblk2_apply (c : Dev nD) (t : Fin cfg0.N) (r : Fin 1024) (d : Fin 256) :
    k0_pay7 (F := Ideal) (iblk m c 2 t) (ix2 r d) = nrm (m ((c.tc : Thread nD τ).loc main_arg2)) (rowOf t r) d := by
  rw [pay7_apply, nrm_apply]
  simp only [blk2_apply m c t]

/-- A sum over the 4096 rows is the sum of the four block sums, in point order. -/
theorem sum_blocks {M : Type*} [AddCommMonoid M] (f : Fin 4096 → M) :
    ∑ i, f i = (((∑ r, f (rowOf t0_0 r)) + ∑ r, f (rowOf t0_1 r)) + ∑ r, f (rowOf t0_2 r)) + ∑ r, f (rowOf t0_3 r) := by
  have e : ∀ (t : Fin 4) (t' : Fin cfg0.N) (ht : t'.val = t.val) (r : Fin 1024),
      (finProdFinEquiv (t, r) : Fin 4096) = rowOf t' r := fun t t' ht r => Fin.ext (by
    show (finProdFinEquiv (t, r) : Fin (4 * 1024)).val = (rowOf t' r).val
    have h1 : (finProdFinEquiv (t, r) : Fin (4 * 1024)).val = r.val + 1024 * t.val := rfl
    have h2 : (rowOf t' r).val = 1024 * t'.val + r.val := rfl
    rw [h1, h2, ht]; omega)
  rw [← Equiv.sum_comp (finProdFinEquiv (m := 4) (n := 1024)) f, Fintype.sum_prod_type, Fin.sum_univ_four]
  simp only [e 0 t0_0 rfl, e 1 t0_1 rfl, e 2 t0_2 rfl, e 3 t0_3 rfl]

/-- The accumulators after the last point, the four steps spelt out. -/
theorem result_eq (c : Dev nD) : result m c
    = step (iblk m c 0 t0_3) (iblk m c 1 t0_3) (iblk m c 2 t0_3) (step (iblk m c 0 t0_2) (iblk m c 1 t0_2) (iblk m c 2 t0_2)
        (step (iblk m c 0 t0_1) (iblk m c 1 t0_1) (iblk m c 2 t0_1) (step (iblk m c 0 t0_0) (iblk m c 1 t0_0) (iblk m c 2 t0_0) zero6))) := rfl

section Steps
variable (x0 x1 x2 : Vec Ideal S1024x256 .f32) (p : Outs Ideal)
theorem step_G0 : (step x0 x1 x2 p).1 = k0_pay13 (k0_pay7 x0) p.1 := rfl
theorem step_G1 : (step x0 x1 x2 p).2.1 = k0_pay13 (k0_pay7 x1) p.2.1 := rfl
theorem step_G2 : (step x0 x1 x2 p).2.2.1 = k0_pay13 (k0_pay7 x2) p.2.2.1 := rfl
theorem step_s0 : (step x0 x1 x2 p).2.2.2.1 = k0_pay11 (k0_pay7 x0) p.2.2.2.1 := rfl
theorem step_s1 : (step x0 x1 x2 p).2.2.2.2.1 = k0_pay11 (k0_pay7 x1) p.2.2.2.2.1 := rfl
theorem step_s2 : (step x0 x1 x2 p).2.2.2.2.2 = k0_pay11 (k0_pay7 x2) p.2.2.2.2.2 := rfl
end Steps
theorem zero_G0 : (zero6 (F := Ideal)).1 = k0_pay1 (F := Ideal) := rfl
theorem zero_G1 : (zero6 (F := Ideal)).2.1 = k0_pay2 (F := Ideal) := rfl
theorem zero_G2 : (zero6 (F := Ideal)).2.2.1 = k0_pay3 (F := Ideal) := rfl
theorem zero_s0 : (zero6 (F := Ideal)).2.2.2.1 = k0_pay4 (F := Ideal) := rfl
theorem zero_s1 : (zero6 (F := Ideal)).2.2.2.2.1 = k0_pay5 (F := Ideal) := rfl
theorem zero_s2 : (zero6 (F := Ideal)).2.2.2.2.2 = k0_pay6 (F := Ideal) := rfl

/-- The first Gram accumulator ends as the Gram matrix of the normalised first argument. -/
theorem G0_eq (c : Dev nD) (d e : Fin 256) :
    (result m c).1 (ix2 d e) = gram (nrm (m ((c.tc : Thread nD τ).loc main_arg0))) d e := by
  rw [result_eq, step_G0, step_G0, step_G0, step_G0, zero_G0]
  rw [pay13_apply, pay13_apply, pay13_apply, pay13_apply]
  simp only [nblk0_apply]
  rw [show k0_pay1 (F := Ideal) (ix2 d e) = 0 from Ideal.ofBits_zero_f32, zero_add, gram,
    sum_blocks fun i => nrm (m ((c.tc : Thread nD τ).loc main_arg0)) i d * nrm (m ((c.tc : Thread nD τ).loc main_arg0)) i e]

/-- The second Gram accumulator ends as the Gram matrix of the normalised second argument. -/
theorem G1_eq (c : Dev nD) (d e : Fin 256) :
    (result m c).2.1 (ix2 d e) = gram (nrm (m ((c.tc : Thread nD τ).loc main_arg1))) d e := by
  rw [result_eq, step_G1, step_G1, step_G1, step_G1, zero_G1]
  rw [pay13_apply, pay13_apply, pay13_apply, pay13_apply]
  simp only [nblk1_apply]
  rw [show k0_pay2 (F := Ideal) (ix2 d e) = 0 from Ideal.ofBits_zero_f32, zero_add, gram,
    sum_blocks fun i => nrm (m ((c.tc : Thread nD τ).loc main_arg1)) i d * nrm (m ((c.tc : Thread nD τ).loc main_arg1)) i e]

/-- The third Gram accumulator ends as the Gram matrix of the normalised third argument. -/
theorem G2_eq (c : Dev nD) (d e : Fin 256) :
    (result m c).2.2.1 (ix2 d e) = gram (nrm (m ((c.tc : Thread nD τ).loc main_arg2))) d e := by
  rw [result_eq, step_G2, step_G2, step_G2, step_G2, zero_G2]
  rw [pay13_apply, pay13_apply, pay13_apply, pay13_apply]
  simp only [nblk2_apply]
  rw [show k0_pay3 (F := Ideal) (ix2 d e) = 0 from Ideal.ofBits_zero_f32, zero_add, gram,
    sum_blocks fun i => nrm (m ((c.tc : Thread nD τ).loc main_arg2)) i d * nrm (m ((c.tc : Thread nD τ).loc main_arg2)) i e]

/-- The first column-sum accumulator ends as the column sums of the normalised first argument. -/
theorem s0_eq (c : Dev nD) (u : Fin 1) (d : Fin 256) :
    (result m c).2.2.2.1 (ix2 u d) = colsum (nrm (m ((c.tc : Thread nD τ).loc main_arg0))) d := by
  rw [result_eq, step_s0, step_s0, step_s0, step_s0, zero_s0]
  rw [pay11_apply, pay11_apply, pay11_apply, pay11_apply]
  simp only [nblk0_apply]
  rw [show k0_pay4 (F := Ideal) (ix2 u d) = 0 from Ideal.ofBits_zero_f32, zero_add, colsum,
    sum_blocks fun i => nrm (m ((c.tc : Thread nD τ).loc main_arg0)) i d]

/-- The second column-sum accumulator ends as the column sums of the normalised second argument. -/
theorem s1_eq (c : Dev nD) (u : Fin 1) (d : Fin 256) :
    (result m c).2.2.2.2.1 (ix2 u d) = colsum (nrm (m ((c.tc : Thread nD τ).loc main_arg1))) d := by
  rw [result_eq, step_s1, step_s1, step_s1, step_s1, zero_s1]
  rw [pay11_apply, pay11_apply, pay11_apply, pay11_apply]
  simp only [nblk1_apply]
  rw [show k0_pay5 (F := Ideal) (ix2 u d) = 0 from Ideal.ofBits_zero_f32, zero_add, colsum,
    sum_blocks fun i => nrm (m ((c.tc : Thread nD τ).loc main_arg1)) i d]

/-- The third column-sum accumulator ends as the column sums of the normalised third argument. -/
theorem s2_eq (c : Dev nD) (u : Fin 1) (d : Fin 256) :
    (result m c).2.2.2.2.2 (ix2 u d) = colsum (nrm (m ((c.tc : Thread nD τ).loc main_arg2))) d := by
  rw [result_eq, step_s2, step_s2, step_s2, step_s2, zero_s2]
  rw [pay11_apply, pay11_apply, pay11_apply, pay11_apply]
  simp only [nblk2_apply]
  rw [show k0_pay6 (F := Ideal) (ix2 u d) = 0 from Ideal.ofBits_zero_f32, zero_add, colsum,
    sum_blocks fun i => nrm (m ((c.tc : Thread nD τ).loc main_arg2)) i d]

end Cert.KernelIdeal.BlockValue

end
-- ==== Proof.TailValue.lean ====
/-
  The host operations after the region, read over the extended reals: given that the three 256 × 256 arrays are Gram
  matrices and the three 1 × 256 arrays column sums of three matrices n₀, n₁, n₂, the result is the streaming side's
  loss of n₀, n₁, n₂: every total sum runs from the initial value 0 over all entries, and the literals are 4, 4 and
  3 · 4096².
-/
import proofs.«172687_j88081189306970_2_alg».proof.Proof.KernelRun
import proofs.«172687_j88081189306970_2_alg».proof.Proof.LossSpec
import proofs.«172687_j88081189306970_2_alg».proof.Proof.Consts
import Idealize.ShloMosaic.Lib.ValueIdx
import Idealize.ShloMosaic.PureOps.Ideal.Laws

noncomputable section

open Idealize.ShloMosaic Idealize.ShloMosaic.ValueIdx

namespace Cert.KernelIdeal.TailValue

open Cert.KernelIdeal Cert.KernelIdeal.Gen Cert.KernelIdeal.Pieces Cert.LossSpec

/-- The total sum of the entrywise product of two 256 × 256 arrays is the Frobenius inner product of their entries. -/
theorem frob_apply (A B : Vec Ideal S256x256 .f32) (a b : Fin 256 → Fin 256 → EReal)
    (ha : ∀ d e, A (ix2 d e) = a d e) (hb : ∀ d e, B (ix2 d e) = b d e) (i : S_.Idx) :
    Host.reduceAdd (F := Ideal) (mulf A B) (constant (F := Ideal) S_ .f32 0x00000000#32) reducesTo_S256x256_S_d0_1 h_S_ i
      = frob a b := by
  simp only [Host.reduceAdd, Ideal.hostReduceAdd_def]
  rw [Ideal.hostReduceAdd_total reducesTo_S256x256_S_d0_1 (fun b => b.elim0) _ _ i, sum_idx2]
  simp only [mulf_apply, ha, hb, constant_apply, Ideal.ofBits_zero_f32, zero_add]
  rfl

/-- The total sum of the entrywise square of a 1 × 256 array is the squared length of its row. -/
theorem dotv_apply (S : Vec Ideal S1x256 .f32) (s : Fin 256 → EReal) (hs : ∀ u d, S (ix2 u d) = s d) (i : S_.Idx) :
    Host.reduceAdd (F := Ideal) (mulf S S) (constant (F := Ideal) S_ .f32 0x00000000#32) reducesTo_S1x256_S_d0_1 h_S_ i
      = dotv s := by
  simp only [Host.reduceAdd, Ideal.hostReduceAdd_def]
  rw [Ideal.hostReduceAdd_total reducesTo_S1x256_S_d0_1 (fun b => b.elim0) _ _ i, sum_idx2, Fin.sum_univ_one]
  simp only [mulf_apply, hs, constant_apply, Ideal.ofBits_zero_f32, zero_add]
  rfl

/-- The tail of Gram matrices and column sums is the streaming side's loss. -/
theorem tail_apply (G0 G1 G2 : Vec Ideal S256x256 .f32) (s0 s1 s2 : Vec Ideal S1x256 .f32) (n0 n1 n2 : Mat)
    (hG0 : ∀ d e, G0 (ix2 d e) = gram n0 d e) (hG1 : ∀ d e, G1 (ix2 d e) = gram n1 d e)
    (hG2 : ∀ d e, G2 (ix2 d e) = gram n2 d e) (hs0 : ∀ u d, s0 (ix2 u d) = colsum n0 d)
    (hs1 : ∀ u d, s1 (ix2 u d) = colsum n1 d) (hs2 : ∀ u d, s2 (ix2 u d) = colsum n2 d) (i : S_.Idx) :
    tail (F := Ideal) G0 G1 G2 s0 s1 s2 i = lossK n0 n1 n2 := by
  unfold tail
  simp only [addf_apply, subf_apply, mulf_apply, constant_apply, frob_apply G0 G0 _ _ hG0 hG0, frob_apply G1 G1 _ _ hG1 hG1,
    frob_apply G2 G2 _ _ hG2 hG2, frob_apply G0 G1 _ _ hG0 hG1, frob_apply G0 G2 _ _ hG0 hG2, frob_apply G1 G2 _ _ hG1 hG2,
    dotv_apply s0 _ hs0, dotv_apply s1 _ hs1, dotv_apply s2 _ hs2, Cert.Consts.ofBits_four, Cert.Consts.ofBits_big]
  rfl

end Cert.KernelIdeal.TailValue

end
-- ==== Proof.RefValue.lean ====
/-
  The quadratic side read index by index: its result is the loss of the three row-normalised argument arrays.

  Each argument array x is divided, row by row, by its clamped norm (the normalised matrix `nrm x`); each of the six
  similarity matrices is a matrix product of one normalised matrix with the transpose of another, scaled by 2, so its
  entry (p, q) is  2 ∑ d, nrm a p d * nrm b q d;  the three diagonal pairs contribute ∑ (sim - 1)² and the three
  off-diagonal pairs ∑ sim², every sum running over all 4096² index pairs from the initial value 0.
-/
import proofs.«172687_j88081189306970_2_alg».proof.Defs
import proofs.«172687_j88081189306970_2_alg».proof.Proof.Gen.ReferenceIdeal.Run
import proofs.«172687_j88081189306970_2_alg».proof.Proof.Gen.ReferenceIdeal.Read
import proofs.«172687_j88081189306970_2_alg».proof.Proof.Norm

noncomputable section

namespace Cert.ReferenceIdeal.RefValue

open Idealize.ShloMosaic Idealize.ShloMosaic.ValueIdx Cert.ReferenceIdeal Cert.ReferenceIdeal.Read
open Cert.Norm Cert.LossSpec

local macro "ix_ext" : term => `(funext fun a => Fin.ext (by match a with | ⟨0, _⟩ => rfl | ⟨1, _⟩ => rfl))

abbrev Arr := (⟨S4096x256, .f32⟩ : BufTy).Contents (Elt Ideal)

/-- The first argument divided by its clamped row norms is its normalised matrix. -/
theorem norm0 (x : Arr) (p : Fin 4096) (d : Fin 256) : val_main_v4 (F := Ideal) x (ix2 p d) = nrm x p d := by
  have e : ∀ k : Fin 256, idx_main_call0_v1 (idx_main_call0_v2 (idx_main_v3 (ix2 p d))) k = ix2 p k := fun k => ix_ext
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, e, Ideal.hostDivf_def, Ideal.maximumf_def, Ideal.hostUnary_sqrt_def,
    Ideal.mulf_def, Ideal.ofBits_def, Ideal.ofBits_zero_f32, zero_add]
  rfl

/-- The second argument likewise. -/
theorem norm1 (x : Arr) (p : Fin 4096) (d : Fin 256) : val_main_v9 (F := Ideal) x (ix2 p d) = nrm x p d := by
  have e : ∀ k : Fin 256, idx_main_call1_v1 (idx_main_call1_v2 (idx_main_v8 (ix2 p d))) k = ix2 p k := fun k => ix_ext
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, e, Ideal.hostDivf_def, Ideal.maximumf_def, Ideal.hostUnary_sqrt_def,
    Ideal.mulf_def, Ideal.ofBits_def, Ideal.ofBits_zero_f32, zero_add]
  rfl

/-- The third argument likewise. -/
theorem norm2 (x : Arr) (p : Fin 4096) (d : Fin 256) : val_main_v14 (F := Ideal) x (ix2 p d) = nrm x p d := by
  have e : ∀ k : Fin 256, idx_main_call2_v1 (idx_main_call2_v2 (idx_main_v13 (ix2 p d))) k = ix2 p k := fun k => ix_ext
  rw [val_main_v14_apply, val_main_v13_apply, val_main_v12_apply, val_main_v10_apply, val_main_call2_v2_apply,
    val_main_call2_v1_apply, val_main_v11_apply, val_main_cst_1_apply, val_main_call2_cst_apply]
  simp only [val_main_call2_v0_apply, e, Ideal.hostDivf_def, Ideal.maximumf_def, Ideal.hostUnary_sqrt_def,
    Ideal.mulf_def, Ideal.ofBits_def, Ideal.ofBits_zero_f32, zero_add]
  rfl

/-- Entry (p, q) of the similarity matrix of the first argument against itself. -/
theorem sim00 (x0 : Arr) (p q : Fin 4096) : val_main_v30 (F := Ideal) x0 (ix2 p q) = sim (nrm x0) (nrm x0) p q := by
  have el : ∀ k : Fin 256, lidx_main_v28 (ix2 p q) k = ix2 p k := fun k => ix_ext
  have er : ∀ k : Fin 256, idx_main_v27 (ridx_main_v28 (ix2 p q) k) = ix2 q k := fun k => ix_ext
  rw [val_main_v30_apply, val_main_v28_apply, val_main_v29_apply, val_main_cst_5_apply]
  simp only [val_main_v27_apply, el, er, norm0, Ideal.mulf_def, Ideal.ofBits_def, Cert.Consts.ofBits_two]
  rfl

/-- The first diagonal pair's contribution. -/
theorem pos0 (x0 : Arr) (i : S_.Idx) : val_main_v42 (F := Ideal) x0 i = pos (nrm x0) := by
  rw [val_main_v42_apply, val_main_cst_9_apply, sum_idx2]
  simp only [val_main_v41_apply, val_main_v40_apply, val_main_v39_apply, val_main_cst_8_apply, sim00, Ideal.mulf_def,
    Ideal.subf_def, Ideal.ofBits_def, Cert.Consts.ofBits_one, Ideal.ofBits_zero_f32, zero_add]
  rfl

/-- Entry (p, q) of the similarity matrix of the second argument against itself. -/
theorem sim11 (x1 : Arr) (p q : Fin 4096) :
    val_main_v34 (F := Ideal) x1 (ix2 p q) = sim (nrm x1) (nrm x1) p q := by
  have el : ∀ k : Fin 256, lidx_main_v32 (ix2 p q) k = ix2 p k := fun k => ix_ext
  have er : ∀ k : Fin 256, idx_main_v31 (ridx_main_v32 (ix2 p q) k) = ix2 q k := fun k => ix_ext
  rw [val_main_v34_apply, val_main_v32_apply, val_main_v33_apply, val_main_cst_6_apply]
  simp only [val_main_v31_apply, el, er, norm1, norm1, Ideal.mulf_def, Ideal.ofBits_def, Cert.Consts.ofBits_two]
  rfl

/-- Entry (p, q) of the similarity matrix of the third argument against itself. -/
theorem sim22 (x2 : Arr) (p q : Fin 4096) :
    val_main_v38 (F := Ideal) x2 (ix2 p q) = sim (nrm x2) (nrm x2) p q := by
  have el : ∀ k : Fin 256, lidx_main_v36 (ix2 p q) k = ix2 p k := fun k => ix_ext
  have er : ∀ k : Fin 256, idx_main_v35 (ridx_main_v36 (ix2 p q) k) = ix2 q k := fun k => ix_ext
  rw [val_main_v38_apply, val_main_v36_apply, val_main_v37_apply, val_main_cst_7_apply]
  simp only [val_main_v35_apply, el, er, norm2, norm2, Ideal.mulf_def, Ideal.ofBits_def, Cert.Consts.ofBits_two]
  rfl

/-- Entry (p, q) of the similarity matrix of the first argument against the second. -/
theorem sim01 (x0 x1 : Arr) (p q : Fin 4096) :
    val_main_v18 (F := Ideal) x0 x1 (ix2 p q) = sim (nrm x0) (nrm x1) p q := by
  have el : ∀ k : Fin 256, lidx_main_v16 (ix2 p q) k = ix2 p k := fun k => ix_ext
  have er : ∀ k : Fin 256, idx_main_v15 (ridx_main_v16 (ix2 p q) k) = ix2 q k := fun k => ix_ext
  rw [val_main_v18_apply, val_main_v16_apply, val_main_v17_apply, val_main_cst_2_apply]
  simp only [val_main_v15_apply, el, er, norm0, norm1, Ideal.mulf_def, Ideal.ofBits_def, Cert.Consts.ofBits_two]
  rfl

/-- Entry (p, q) of the similarity matrix of the first argument against the third. -/
theorem sim02 (x0 x2 : Arr) (p q : Fin 4096) :
    val_main_v22 (F := Ideal) x0 x2 (ix2 p q) = sim (nrm x0) (nrm x2) p q := by
  have el : ∀ k : Fin 256, lidx_main_v20 (ix2 p q) k = ix2 p k := fun k => ix_ext
  have er : ∀ k : Fin 256, idx_main_v19 (ridx_main_v20 (ix2 p q) k) = ix2 q k := fun k => ix_ext
  rw [val_main_v22_apply, val_main_v20_apply, val_main_v21_apply, val_main_cst_3_apply]
  simp only [val_main_v19_apply, el, er, norm0, norm2, Ideal.mulf_def, Ideal.ofBits_def, Cert.Consts.ofBits_two]
  rfl

/-- Entry (p, q) of the similarity matrix of the second argument against the third. -/
theorem sim12 (x1 x2 : Arr) (p q : Fin 4096) :
    val_main_v26 (F := Ideal) x1 x2 (ix2 p q) = sim (nrm x1) (nrm x2) p q := by
  have el : ∀ k : Fin 256, lidx_main_v24 (ix2 p q) k = ix2 p k := fun k => ix_ext
  have er : ∀ k : Fin 256, idx_main_v23 (ridx_main_v24 (ix2 p q) k) = ix2 q k := fun k => ix_ext
  rw [val_main_v26_apply, val_main_v24_apply, val_main_v25_apply, val_main_cst_4_apply]
  simp only [val_main_v23_apply, el, er, norm1, norm2, Ideal.mulf_def, Ideal.ofBits_def, Cert.Consts.ofBits_two]
  rfl

/-- The second diagonal pair's contribution. -/
theorem pos1 (x1 : Arr) (i : S_.Idx) : val_main_v46 (F := Ideal) x1 i = pos (nrm x1) := by
  rw [val_main_v46_apply, val_main_cst_11_apply, sum_idx2]
  simp only [val_main_v45_apply, val_main_v44_apply, val_main_v43_apply, val_main_cst_10_apply, sim11, Ideal.mulf_def,
    Ideal.subf_def, Ideal.ofBits_def, Cert.Consts.ofBits_one, Ideal.ofBits_zero_f32, zero_add]
  rfl

/-- The third diagonal pair's contribution. -/
theorem pos2 (x2 : Arr) (i : S_.Idx) : val_main_v51 (F := Ideal) x2 i = pos (nrm x2) := by
  rw [val_main_v51_apply, val_main_cst_13_apply, sum_idx2]
  simp only [val_main_v50_apply, val_main_v49_apply, val_main_v48_apply, val_main_cst_12_apply, sim22, Ideal.mulf_def,
    Ideal.subf_def, Ideal.ofBits_def, Cert.Consts.ofBits_one, Ideal.ofBits_zero_f32, zero_add]
  rfl

/-- The first off-diagonal pair's contribution. -/
theorem neg01 (x0 x1 : Arr) (i : S_.Idx) : val_main_v54 (F := Ideal) x0 x1 i = neg (nrm x0) (nrm x1) := by
  rw [val_main_v54_apply, val_main_cst_14_apply, sum_idx2]
  simp only [val_main_v53_apply, sim01, Ideal.mulf_def, Ideal.ofBits_def, Ideal.ofBits_zero_f32, zero_add]
  rfl

/-- The second off-diagonal pair's contribution. -/
theorem neg02 (x0 x2 : Arr) (i : S_.Idx) : val_main_v56 (F := Ideal) x0 x2 i = neg (nrm x0) (nrm x2) := by
  rw [val_main_v56_apply, val_main_cst_15_apply, sum_idx2]
  simp only [val_main_v55_apply, sim02, Ideal.mulf_def, Ideal.ofBits_def, Ideal.ofBits_zero_f32, zero_add]
  rfl

/-- The third off-diagonal pair's contribution. -/
theorem neg12 (x1 x2 : Arr) (i : S_.Idx) : val_main_v59 (F := Ideal) x1 x2 i = neg (nrm x1) (nrm x2) := by
  rw [val_main_v59_apply, val_main_cst_16_apply, sum_idx2]
  simp only [val_main_v58_apply, sim12, Ideal.mulf_def, Ideal.ofBits_def, Ideal.ofBits_zero_f32, zero_add]
  rfl

/-- The result: the loss of the three normalised arrays, the six contributions added in the program's order. -/
theorem result_eq (x0 x1 x2 : Arr) (i : S_.Idx) :
    val_main_v61 (F := Ideal) x0 x1 x2 i = lossR (nrm x0) (nrm x1) (nrm x2) := by
  rw [val_main_v61_apply, val_main_v52_apply, val_main_v60_apply, val_main_v47_apply, val_main_v57_apply,
    pos0, pos1, pos2, neg01, neg02, neg12]
  rfl

end Cert.ReferenceIdeal.RefValue

end
-- ==== Proof.Finite.lean ====
/-
  The precondition, read: every entry of the three argument arrays is a real number.

  The precondition says |x| < +∞ for every entry x of each array, the three "all" conjoined. Over the extended reals
  |x| = max x (-x), so neither x = +∞ nor x = -∞ passes: x is the image of a real.
-/
import proofs.«172687_j88081189306970_2_alg».proof.Defs
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic

/-- The word of +∞. -/
theorem ofBits_inf : Ideal.ofBits .f32 0x7F800000#32 = ⊤ := by
  simp [Ideal.ofBits, Ideal.ieee]

/-- An extended real whose absolute value compares below +∞ is a real. -/
theorem real_of_abs_lt (x : EReal)
    (h : FloatOps.cmpf (F := Ideal) (φ := .f32) .olt (FloatOps.hostAbsf x) (Ideal.ofBits .f32 0x7F800000#32) = 1#1) :
    ∃ r : ℝ, x = (r : EReal) := by
  rw [ofBits_inf, Ideal.cmpf_def, Ideal.hostAbsf_def, Ideal.absf_def] at h
  induction x using EReal.rec
  · simp [Ideal.cmp] at h
  · exact ⟨_, rfl⟩
  · simp [Ideal.cmp] at h

instance : Subsingleton Cert.Pre_finite_inputs.S_.Idx := ⟨fun a b => funext fun d => d.elim0⟩

/-- Under the precondition every entry of each argument array is a real number. -/
theorem real_of_pre [Cert.Pre_finite_inputs.Facts] (z0 z1 z2 : FVec Ideal Cert.Pre_finite_inputs.S4096x256 .f32)
    (h : Cert.Pre_finite_inputs.fn (F := Ideal) z0 z1 z2 = fun _ => 1#1) :
    (∀ j, ∃ r : ℝ, z0 j = (r : EReal)) ∧ (∀ j, ∃ r : ℝ, z1 j = (r : EReal)) ∧ (∀ j, ∃ r : ℝ, z2 j = (r : EReal)) := by
  have h' := congrFun h ValueIdx.ix0
  dsimp only [Cert.Pre_finite_inputs.fn] at h'
  obtain ⟨h01, h2⟩ := IntOp.andi_eq_one.1 h'
  obtain ⟨h0, h1⟩ := IntOp.andi_eq_one.1 h01
  exact ⟨fun j => real_of_abs_lt _ (Host.reduce_andi_all _ _ _ _ _ h0 j),
    fun j => real_of_abs_lt _ (Host.reduce_andi_all _ _ _ _ _ h1 j),
    fun j => real_of_abs_lt _ (Host.reduce_andi_all _ _ _ _ _ h2 j)⟩

end Cert.Finite

end
-- ==== Proof.Claims.lean ====
/-
  The five claims.

  The three frames: the two kernel programs' frames are the generated frame runs; the reference has no kernel and
  its frame is its run with the result dropped. The idealization rewrote nothing, so there is nothing to preserve.
  The value claim: the streaming program ends with the tail function of the final accumulators, which are the Gram
  matrices and column sums of the three row-normalised arguments; the quadratic program ends with the sum of the six
  squared similarity contributions of the same normalised arguments. Under the precondition every argument entry is
  real, hence every normalised entry, and for real entries the two results are one number: expand (2x - 1)², exchange
  the order of the finite sums, and count the 3 · 4096² ones.
-/
import proofs.«172687_j88081189306970_2_alg».proof.Defs
import proofs.«172687_j88081189306970_2_alg».proof.Proof.Gen.Kernel.Frame
import proofs.«172687_j88081189306970_2_alg».proof.Proof.Gen.KernelIdeal.Frame
import proofs.«172687_j88081189306970_2_alg».proof.Proof.Gen.ReferenceIdeal.Run
import proofs.«172687_j88081189306970_2_alg».proof.Proof.Gen.ReferenceIdeal.Read
import proofs.«172687_j88081189306970_2_alg».proof.Proof.Gen.Pre_finite_inputs
import proofs.«172687_j88081189306970_2_alg».proof.Proof.KernelRun
import proofs.«172687_j88081189306970_2_alg».proof.Proof.BlockValue
import proofs.«172687_j88081189306970_2_alg».proof.Proof.TailValue
import proofs.«172687_j88081189306970_2_alg».proof.Proof.RefValue
import proofs.«172687_j88081189306970_2_alg».proof.Proof.Finite

noncomputable section

open Idealize.ShloMosaic Idealize.ShloMosaic.TcCoe Idealize.SL.Sem

namespace Cert.Proof.Claims

open Cert.KernelIdeal.Pieces (tail result)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the loss of the three normalised arguments, in its two arrangements; with real entries they agree. -/
theorem algebraic : Cert.algebraic_KernelIdeal_ReferenceIdeal := by
  intro m ρ m' ρ' hpre hagree
  refine ⟨fun c => tail (result m c).1 (result m c).2.1 (result m c).2.2.1 (result m c).2.2.2.1 (result m c).2.2.2.2.1
    (result m c).2.2.2.2.2, Cert.KernelIdeal.Pieces.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, (hagree c).1, (hagree c).2.1, (hagree c).2.2]
  obtain ⟨r0, r1, r2⟩ := Cert.Finite.real_of_pre _ _ _ (hpre c)
  funext i
  refine (Cert.ReferenceIdeal.RefValue.result_eq _ _ _ i).trans ?_
  refine (Cert.LossSpec.loss_eq _ _ _ (Cert.Norm.nrm_real _ r0) (Cert.Norm.nrm_real _ r1) (Cert.Norm.nrm_real _ r2)).symm.trans ?_
  exact (Cert.KernelIdeal.TailValue.tail_apply _ _ _ _ _ _ _ _ _ (Cert.KernelIdeal.BlockValue.G0_eq m c)
    (Cert.KernelIdeal.BlockValue.G1_eq m c) (Cert.KernelIdeal.BlockValue.G2_eq m c) (Cert.KernelIdeal.BlockValue.s0_eq m c)
    (Cert.KernelIdeal.BlockValue.s1_eq m c) (Cert.KernelIdeal.BlockValue.s2_eq m c) i).symm

end Cert.Proof.Claims

end
-- ==== Proof.lean ====
/-
  Two arrangements of one loss are equal over the extended reals.

  Three 4096 × 256 arrays are normalised row by row (each row divided by its Euclidean norm, clamped below by a small
  positive constant). One program forms, in a single pass over the rows in four blocks, the three Gram matrices and the
  three column-sum vectors of the normalised arrays and combines them into
      4 ∑ₖ≤ₗ ⟨Gₖ, Gₗ⟩ - 4 ∑ₖ sₖ·sₖ + 3 · 4096²;
  the other forms the six 4096 × 4096 similarity matrices 2 nₖ nₗᵀ and sums (sim - 1)² over the diagonal pairs and sim²
  over the off-diagonal pairs. With finite inputs all normalised entries are real numbers and the two numbers agree.
  The modules: the algebra (GramAlgebra, LossSpec), the literals (Consts), the normalisation (Norm), the precondition
  read (Finite), the quadratic side read index by index (RefValue), the streaming side's accumulators point by point
  (Pieces), its run and the host operations after the region (KernelRun), its arrays entry by entry (BlockValue, over
  LibKeepdims and LibMatmul), its result (TailValue), and the claims (Claims).
-/
import proofs.«172687_j88081189306970_2_alg».proof.Defs
import proofs.«172687_j88081189306970_2_alg».proof.Proof.Gen.Kernel
import proofs.«172687_j88081189306970_2_alg».proof.Proof.Gen.KernelIdeal
import proofs.«172687_j88081189306970_2_alg».proof.Proof.Gen.ReferenceIdeal
import proofs.«172687_j88081189306970_2_alg».proof.Proof.Gen.Pre_finite_inputs
import proofs.«172687_j88081189306970_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
